-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x127 : Shape := ⟨2, ![100000, 127]⟩
abbrev S100000x1 : Shape := ⟨2, ![100000, 1]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x127 : S_.BroadcastsInDim S100000x127 (![] : Fin 0 → Fin S100000x127.rank)
  reducesTo_S100000x127_S_d0_1 : S100000x127.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x64 .f32) (main_arg6 : FVec F S64 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S100000x127 .f32) (main_arg1 : FVec F S100000x1 .f32) (main_arg2 : IVec S2x800000 32) (main_arg3 : FVec F S128x128 .f32) (main_arg4 : FVec F S128 .f32) (main_arg5 : FVec F S128x64 .f32) (main_arg6 : FVec F S64 .f32) (main_arg7 : FVec F S128x64 .f32) (main_arg8 : FVec F S64 .f32) : IVec S_ 1 :=
  let main_v0 : FVec F S100000x127 .f32 := Host.absf main_arg0
  let main_cst : FVec F S_ .f32 := constant S_ .f32 0x7F800000#32
  let main_v1 : FVec F S100000x127 .f32 := broadcastInDim S100000x127 ![] bcast_S_S100000x127 main_cst
  let main_v2 : IVec S100000x127 1 := cmpf .olt main_v0 main_v1
  let main_c : IVec S_ 1 := constantI S_ 1 1#1
  let main_v3 : IVec S_ 1 := (fun x v => Host.reduce IntOp.andi x v reducesTo_S100000x127_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x127 : Shape := ⟨2, ![100000, 127]⟩
abbrev S100000x1 : Shape := ⟨2, ![100000, 1]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x128 : Shape := ⟨2, ![100000, 128]⟩
abbrev S10000x127 : Shape := ⟨2, ![10000, 127]⟩
abbrev S10000x1 : Shape := ⟨2, ![10000, 1]⟩
abbrev S10000x128 : Shape := ⟨2, ![10000, 128]⟩
abbrev S900000x128 : Shape := ⟨2, ![900000, 128]⟩
abbrev S1x128 : Shape := ⟨2, ![1, 128]⟩
abbrev S100000x64 : Shape := ⟨2, ![100000, 64]⟩
abbrev S10000x64 : Shape := ⟨2, ![10000, 64]⟩
abbrev S900000x64 : Shape := ⟨2, ![900000, 64]⟩
abbrev S1x64 : Shape := ⟨2, ![1, 64]⟩

abbrev nBuf : Space → Nat
  | .hbm => 103
  | .vmem => 36
  | .smem => 0
  | _ => 0

abbrev bufTy : (tb : Table) → Fin (tcTables nBuf tb) → BufTy
  | .hbm, ⟨0, _⟩ => ⟨S100000x127, .f32⟩
  | .hbm, ⟨1, _⟩ => ⟨S100000x1, .f32⟩
  | .hbm, ⟨2, _⟩ => ⟨S2x800000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S100000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S1x800000, .i32⟩
  | .hbm, ⟨14, _⟩ => ⟨S800000, .i32⟩
  | .hbm, ⟨15, _⟩ => ⟨S900000, .i32⟩
  | .hbm, ⟨16, _⟩ => ⟨S_, .f32⟩
  | .hbm, ⟨17, _⟩ => ⟨S900000, .f32⟩
  | .hbm, ⟨18, _⟩ => ⟨S_, .f32⟩
  | .hbm, ⟨19, _⟩ => ⟨S100000, .f32⟩
  | .hbm, ⟨20, _⟩ => ⟨S900000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S900000, .i32⟩
  | .hbm, ⟨28, _⟩ => ⟨S900000, .i1⟩
  | .hbm, ⟨29, _⟩ => ⟨S_, .i32⟩
  | .hbm, ⟨30, _⟩ => ⟨S900000, .i32⟩
  | .hbm, ⟨31, _⟩ => ⟨S900000, .i32⟩
  | .hbm, ⟨32, _⟩ => ⟨S900000, .i32⟩
  | .hbm, ⟨33, _⟩ => ⟨S900000x1, .i32⟩
  | .hbm, ⟨34, _⟩ => ⟨S900000, .f32⟩
  | .hbm, ⟨35, _⟩ => ⟨S_, .i32⟩
  | .hbm, ⟨36, _⟩ => ⟨S900000, .i32⟩
  | .hbm, ⟨37, _⟩ => ⟨S900000, .i1⟩
  | .hbm, ⟨38, _⟩ => ⟨S_, .i32⟩
  | .hbm, ⟨39, _⟩ => ⟨S900000, .i32⟩
  | .hbm, ⟨40, _⟩ => ⟨S900000, .i32⟩
  | .hbm, ⟨41, _⟩ => ⟨S900000, .i32⟩
  | .hbm, ⟨42, _⟩ => ⟨S900000x1, .i32⟩
  | .hbm, ⟨43, _⟩ => ⟨S900000, .f32⟩
  | .hbm, ⟨44, _⟩ => ⟨S900000, .f32⟩
  | .hbm, ⟨45, _⟩ => ⟨S100000x128, .f32⟩
  | .hbm, ⟨46, _⟩ => ⟨S100000x128, .f32⟩
  | .hbm, ⟨47, _⟩ => ⟨S900000x1, .f32⟩
  | .hbm, ⟨48, _⟩ => ⟨S_, .i32⟩
  | .hbm, ⟨49, _⟩ => ⟨S900000, .i32⟩
  | .hbm, ⟨50, _⟩ => ⟨S900000, .i1⟩
  | .hbm, ⟨51, _⟩ => ⟨S_, .i32⟩
  | .hbm, ⟨52, _⟩ => ⟨S900000, .i32⟩
  | .hbm, ⟨53, _⟩ => ⟨S900000, .i32⟩
  | .hbm, ⟨54, _⟩ => ⟨S900000, .i32⟩
  | .hbm, ⟨55, _⟩ => ⟨S900000x1, .i32⟩
  | .hbm, ⟨56, _⟩ => ⟨S900000x128, .f32⟩
  | .hbm, ⟨57, _⟩ => ⟨S900000x128, .f32⟩
  | .hbm, ⟨58, _⟩ => ⟨S900000x128, .f32⟩
  | .hbm, ⟨59, _⟩ => ⟨S_, .f32⟩
  | .hbm, ⟨60, _⟩ => ⟨S100000x128, .f32⟩
  | .hbm, ⟨61, _⟩ => ⟨S900000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x64, .f32⟩
  | .hbm, ⟨66, _⟩ => ⟨S900000x1, .f32⟩
  | .hbm, ⟨67, _⟩ => ⟨S_, .i32⟩
  | .hbm, ⟨68, _⟩ => ⟨S900000, .i32⟩
  | .hbm, ⟨69, _⟩ => ⟨S900000, .i1⟩
  | .hbm, ⟨70, _⟩ => ⟨S_, .i32⟩
  | .hbm, ⟨71, _⟩ => ⟨S900000, .i32⟩
  | .hbm, ⟨72, _⟩ => ⟨S900000, .i32⟩
  | .hbm, ⟨73, _⟩ => ⟨S900000, .i32⟩
  | .hbm, ⟨74, _⟩ => ⟨S900000x1, .i32⟩
  | .hbm, ⟨75, _⟩ => ⟨S900000x64, .f32⟩
  | .hbm, ⟨76, _⟩ => ⟨S900000x64, .f32⟩
  | .hbm, ⟨77, _⟩ => ⟨S900000x64, .f32⟩
  | .hbm, ⟨78, _⟩ => ⟨S_, .f32⟩
  | .hbm, ⟨79, _⟩ => ⟨S100000x64, .f32⟩
  | .hbm, ⟨80, _⟩ => ⟨S900000x1, .i32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S900000x1, .f32⟩
  | .hbm, ⟨86, _⟩ => ⟨S_, .i32⟩
  | .hbm, ⟨87, _⟩ => ⟨S900000, .i32⟩
  | .hbm, ⟨88, _⟩ => ⟨S900000, .i1⟩
  | .hbm, ⟨89, _⟩ => ⟨S_, .i32⟩
  | .hbm, ⟨90, _⟩ => ⟨S900000, .i32⟩
  | .hbm, ⟨91, _⟩ => ⟨S900000, .i32⟩
  | .hbm, ⟨92, _⟩ => ⟨S900000, .i32⟩
  | .hbm, ⟨93, _⟩ => ⟨S900000x1, .i32⟩
  | .hbm, ⟨94, _⟩ => ⟨S900000x64, .f32⟩
  | .hbm, ⟨95, _⟩ => ⟨S900000x64, .f32⟩
  | .hbm, ⟨96, _⟩ => ⟨S900000x64, .f32⟩
  | .hbm, ⟨97, _⟩ => ⟨S_, .f32⟩
  | .hbm, ⟨98, _⟩ => ⟨S100000x64, .f32⟩
  | .hbm, ⟨99, _⟩ => ⟨S900000x1, .i32⟩
  | .hbm, ⟨100, _⟩ => ⟨S100000x64, .f32⟩
  | .hbm, ⟨101, _⟩ => ⟨S1x64, .f32⟩
  | .hbm, ⟨102, _⟩ => ⟨S100000x64, .f32⟩
  | .local _ .vmem, ⟨0, _⟩ => ⟨S10000x127, .f32⟩
  | .local _ .vmem, ⟨1, _⟩ => ⟨S10000x127, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S128x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S10000x128, .f32⟩
  | .local _ .vmem, ⟨27, _⟩ => ⟨S10000x128, .f32⟩
  | .local _ .vmem, ⟨28, _⟩ => ⟨S128x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | _, _ => ⟨S100000x127, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_8 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_11 : Ref sig .tc := ⟨.hbm, 86, rfl⟩
abbrev main_v64 : Ref sig .tc := ⟨.hbm, 87, rfl⟩
abbrev main_v65 : Ref sig .tc := ⟨.hbm, 88, rfl⟩
abbrev main_c_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_13 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg2_1 : Ref sig .tc := ⟨.vmem, 30, rfl⟩
abbrev cc6_stg0_0 : Ref sig .tc := ⟨.vmem, 31, rfl⟩
abbrev cc6_stg0_1 : Ref sig .tc := ⟨.vmem, 32, rfl⟩
abbrev cc6_stg1_0 : Ref sig .tc := ⟨.vmem, 33, rfl⟩
abbrev cc6_stg2_0 : Ref sig .tc := ⟨.vmem, 34, rfl⟩
abbrev cc6_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem2_1 : DmaSem sig := 30
abbrev cc6_sem0_0 : DmaSem sig := 31
abbrev cc6_sem0_1 : DmaSem sig := 32
abbrev cc6_sem1_0 : DmaSem sig := 33
abbrev cc6_sem2_0 : DmaSem sig := 34
abbrev cc6_sem2_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x127 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S10000x127_S10000x127_0_0 : ∀ a, (![0, 0] : Fin 2 → Nat) a + S10000x127.size a ≤ S10000x127.size a
  h_S10000x127 : 0 < S10000x127.numel
  inb_S10000x1_S10000x1_0_0 : ∀ a, (![0, 0] : Fin 2 → Nat) a + S10000x1.size a ≤ S10000x1.size a
  h_S10000x1 : 0 < S10000x1.numel
  concatenates_S10000x127_S10000x1_S10000x128_d1 : Shape.Concatenates [S10000x127, S10000x1] S10000x128 1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S10000x128_S128x128_S10000x128_1_0_0_1_n_n_wf : DotDims.WF S10000x128 S128x128 S10000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S10000x128_S128x64_S10000x64_1_0_0_1_n_n_wf : DotDims.WF S10000x128 S128x64 S10000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x127.size a ≤ S100000x127.size a
  hwx0_0 : ∀ i : grid0.Coords, EltTy.bits .f32 = 32 ∨ (Rect.block (s := S100000x127) S10000x127.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

abbrev win0_0 : Pipeline.Window sig grid0 :=
  Pipeline.Window.ofSpec (Memref.whole main_arg0) S10000x127.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v45) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v62) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v75) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v76) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v77) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x127 : Shape := ⟨2, ![100000, 127]⟩
abbrev S100000x1 : Shape := ⟨2, ![100000, 1]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S100000x128 : Shape := ⟨2, ![100000, 128]⟩
abbrev S_ : Shape := ⟨0, ![]⟩
abbrev S900000x1 : Shape := ⟨2, ![900000, 1]⟩
abbrev S900000x128 : Shape := ⟨2, ![900000, 128]⟩
abbrev S1x128 : Shape := ⟨2, ![1, 128]⟩
abbrev S100000x64 : Shape := ⟨2, ![100000, 64]⟩
abbrev S900000x64 : Shape := ⟨2, ![900000, 64]⟩
abbrev S1x64 : Shape := ⟨2, ![1, 64]⟩

abbrev nBuf : Space → Nat
  | .hbm => 182
  | .vmem => 0
  | .smem => 0
  | _ => 0

abbrev hbmTy0_0 (i : Nat) : BufTy := match i % 128 with
  | 0 => ⟨S100000x127, .f32⟩
  | 1 => ⟨S100000x1, .f32⟩
  | 2 => ⟨S2x800000, .i32⟩
  | 3 => ⟨S128x128, .f32⟩
  | 4 => ⟨S128, .f32⟩
  | 5 => ⟨S128x64, .f32⟩
  | 6 => ⟨S64, .f32⟩
  | 7 => ⟨S128x64, .f32⟩
  | 8 => ⟨S64, .f32⟩
  | 9 => ⟨S100000, .i32⟩
  | 10 => ⟨S1x800000, .i32⟩
  | 11 => ⟨S800000, .i32⟩
  | 12 => ⟨S900000, .i32⟩
  | 13 => ⟨S1x800000, .i32⟩
  | 14 => ⟨S800000, .i32⟩
  | 15 => ⟨S900000, .i32⟩
  | 16 => ⟨S100000x128, .f32⟩
  | 17 => ⟨S100000x128, .f32⟩
  | 18 => ⟨S100000x128, .f32⟩
  | 19 => ⟨S_, .f32⟩
  | 20 => ⟨S900000, .f32⟩
  | 21 => ⟨S_, .f32⟩
  | 22 => ⟨S100000, .f32⟩
  | 23 => ⟨S900000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S900000, .i32⟩
  | 31 => ⟨S900000, .i1⟩
  | 32 => ⟨S_, .i32⟩
  | 33 => ⟨S900000, .i32⟩
  | 34 => ⟨S900000, .i32⟩
  | 35 => ⟨S900000, .i32⟩
  | 36 => ⟨S900000x1, .i32⟩
  | 37 => ⟨S900000, .f32⟩
  | 38 => ⟨S_, .i32⟩
  | 39 => ⟨S900000, .i32⟩
  | 40 => ⟨S900000, .i1⟩
  | 41 => ⟨S_, .i32⟩
  | 42 => ⟨S900000, .i32⟩
  | 43 => ⟨S900000, .i32⟩
  | 44 => ⟨S900000, .i32⟩
  | 45 => ⟨S900000x1, .i32⟩
  | 46 => ⟨S900000, .f32⟩
  | 47 => ⟨S900000, .f32⟩
  | 48 => ⟨S900000x1, .f32⟩
  | 49 => ⟨S_, .i32⟩
  | 50 => ⟨S900000, .i32⟩
  | 51 => ⟨S900000, .i1⟩
  | 52 => ⟨S_, .i32⟩
  | 53 => ⟨S900000, .i32⟩
  | 54 => ⟨S900000, .i32⟩
  | 55 => ⟨S900000, .i32⟩
  | 56 => ⟨S900000x1, .i32⟩
  | 57 => ⟨S900000x128, .f32⟩
  | 58 => ⟨S900000x128, .f32⟩
  | 59 => ⟨S900000x128, .f32⟩
  | 60 => ⟨S_, .f32⟩
  | 61 => ⟨S100000x128, .f32⟩
  | 62 => ⟨S900000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x64, .f32⟩
  | 71 => ⟨S_, .f32⟩
  | 72 => ⟨S900000, .f32⟩
  | 73 => ⟨S_, .f32⟩
  | 74 => ⟨S100000, .f32⟩
  | 75 => ⟨S900000x1, .i32⟩
  | 76 => ⟨S100000, .f32⟩
  | 77 => ⟨S_, .f32⟩
  | 78 => ⟨S100000, .f32⟩
  | 79 => ⟨S100000, .f32⟩
  | 80 => ⟨S100000, .f32⟩
  | 81 => ⟨S_, .i32⟩
  | 82 => ⟨S900000, .i32⟩
  | 83 => ⟨S900000, .i1⟩
  | 84 => ⟨S_, .i32⟩
  | 85 => ⟨S900000, .i32⟩
  | 86 => ⟨S900000, .i32⟩
  | 87 => ⟨S900000, .i32⟩
  | 88 => ⟨S900000x1, .i32⟩
  | 89 => ⟨S900000, .f32⟩
  | 90 => ⟨S_, .i32⟩
  | 91 => ⟨S900000, .i32⟩
  | 92 => ⟨S900000, .i1⟩
  | 93 => ⟨S_, .i32⟩
  | 94 => ⟨S900000, .i32⟩
  | 95 => ⟨S900000, .i32⟩
  | 96 => ⟨S900000, .i32⟩
  | 97 => ⟨S900000x1, .i32⟩
  | 98 => ⟨S900000, .f32⟩
  | 99 => ⟨S900000, .f32⟩
  | 100 => ⟨S900000x1, .f32⟩
  | 101 => ⟨S_, .i32⟩
  | 102 => ⟨S900000, .i32⟩
  | 103 => ⟨S900000, .i1⟩
  | 104 => ⟨S_, .i32⟩
  | 105 => ⟨S900000, .i32⟩
  | 106 => ⟨S900000, .i32⟩
  | 107 => ⟨S900000, .i32⟩
  | 108 => ⟨S900000x1, .i32⟩
  | 109 => ⟨S900000x64, .f32⟩
  | 110 => ⟨S900000x64, .f32⟩
  | 111 => ⟨S900000x64, .f32⟩
  | 112 => ⟨S_, .f32⟩
  | 113 => ⟨S100000x64, .f32⟩
  | 114 => ⟨S900000x1, .i32⟩
  | 115 => ⟨S100000x64, .f32⟩
  | 116 => ⟨S1x64, .f32⟩
  | 117 => ⟨S100000x64, .f32⟩
  | 118 => ⟨S100000x64, .f32⟩
  | 119 => ⟨S100000x64, .f32⟩
  | 120 => ⟨S_, .f32⟩
  | 121 => ⟨S900000, .f32⟩
  | 122 => ⟨S_, .f32⟩
  | 123 => ⟨S100000, .f32⟩
  | 124 => ⟨S900000x1, .i32⟩
  | 125 => ⟨S100000, .f32⟩
  | 126 => ⟨S_, .f32⟩
  | 127 => ⟨S100000, .f32⟩
  | _ => ⟨S100000x127, .f32⟩

abbrev hbmTy0_1 (i : Nat) : BufTy := match i % 128 with
  | 0 => ⟨S100000, .f32⟩
  | 1 => ⟨S100000, .f32⟩
  | 2 => ⟨S_, .i32⟩
  | 3 => ⟨S900000, .i32⟩
  | 4 => ⟨S900000, .i1⟩
  | 5 => ⟨S_, .i32⟩
  | 6 => ⟨S900000, .i32⟩
  | 7 => ⟨S900000, .i32⟩
  | 8 => ⟨S900000, .i32⟩
  | 9 => ⟨S900000x1, .i32⟩
  | 10 => ⟨S900000, .f32⟩
  | 11 => ⟨S_, .i32⟩
  | 12 => ⟨S900000, .i32⟩
  | 13 => ⟨S900000, .i1⟩
  | 14 => ⟨S_, .i32⟩
  | 15 => ⟨S900000, .i32⟩
  | 16 => ⟨S900000, .i32⟩
  | 17 => ⟨S900000, .i32⟩
  | 18 => ⟨S900000x1, .i32⟩
  | 19 => ⟨S900000, .f32⟩
  | 20 => ⟨S900000, .f32⟩
  | 21 => ⟨S900000x1, .f32⟩
  | 22 => ⟨S_, .i32⟩
  | 23 => ⟨S900000, .i32⟩
  | 24 => ⟨S900000, .i1⟩
  | 25 => ⟨S_, .i32⟩
  | 26 => ⟨S900000, .i32⟩
  | 27 => ⟨S900000, .i32⟩
  | 28 => ⟨S900000, .i32⟩
  | 29 => ⟨S900000x1, .i32⟩
  | 30 => ⟨S900000x64, .f32⟩
  | 31 => ⟨S900000x64, .f32⟩
  | 32 => ⟨S900000x64, .f32⟩
  | 33 => ⟨S_, .f32⟩
  | 34 => ⟨S100000x64, .f32⟩
  | 35 => ⟨S900000x1, .i32⟩
  | 36 => ⟨S100000x64, .f32⟩
  | 37 => ⟨S1x64, .f32⟩
  | 38 => ⟨S100000x64, .f32⟩
  | 39 => ⟨S100000x64, .f32⟩
  | 40 => ⟨S_, .f32⟩
  | 41 => ⟨S100000x64, .f32⟩
  | 42 => ⟨S100000x64, .f32⟩
  | 43 => ⟨S100000x64, .f32⟩
  | 44 => ⟨S100000x64, .f32⟩
  | 45 => ⟨S100000x64, .i1⟩
  | 46 => ⟨S100000x64, .f32⟩
  | 47 => ⟨S100000x64, .f32⟩
  | 48 => ⟨S100000x64, .f32⟩
  | 49 => ⟨S100000x64, .f32⟩
  | 50 => ⟨S100000x64, .f32⟩
  | 51 => ⟨S100000x64, .f32⟩
  | 52 => ⟨S100000x64, .f32⟩
  | 53 => ⟨S100000x64, .f32⟩
  | _ => ⟨S100000x127, .f32⟩

abbrev hbmTy (i : Nat) : BufTy := match i / 128 with
  | 0 => hbmTy0_0 i
  | 1 => hbmTy0_1 i
  | _ => ⟨S100000x127, .f32⟩

abbrev bufTy : (tb : Table) → Fin (tcTables nBuf tb) → BufTy
  | .hbm, ⟨i, _⟩ => hbmTy i
  | _, _ => ⟨S100000x127, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_15 : Ref sig .tc := ⟨.hbm, 101, rfl⟩
abbrev main_v73 : Ref sig .tc := ⟨.hbm, 102, rfl⟩
abbrev main_v74 : Ref sig .tc := ⟨.hbm, 103, rfl⟩
abbrev main_c_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_18 : Ref sig .tc := ⟨.hbm, 120, rfl⟩
abbrev main_v89 : Ref sig .tc := ⟨.hbm, 121, rfl⟩
abbrev main_cst_19 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_20 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_c_21 : Ref sig .tc := ⟨.hbm, 130, rfl⟩
abbrev main_v96 : Ref sig .tc := ⟨.hbm, 131, rfl⟩
abbrev main_v97 : Ref sig .tc := ⟨.hbm, 132, rfl⟩
abbrev main_c_22 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_c_23 : Ref sig .tc := ⟨.hbm, 139, rfl⟩
abbrev main_v103 : Ref sig .tc := ⟨.hbm, 140, rfl⟩
abbrev main_v104 : Ref sig .tc := ⟨.hbm, 141, rfl⟩
abbrev main_c_24 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_c_25 : Ref sig .tc := ⟨.hbm, 150, rfl⟩
abbrev main_v112 : Ref sig .tc := ⟨.hbm, 151, rfl⟩
abbrev main_v113 : Ref sig .tc := ⟨.hbm, 152, rfl⟩
abbrev main_c_26 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_27 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_call1_cst : Ref sig .tc := ⟨.hbm, 168, rfl⟩
abbrev main_call1_v0 : Ref sig .tc := ⟨.hbm, 169, rfl⟩
abbrev main_call1_v1 : Ref sig .tc := ⟨.hbm, 170, rfl⟩
abbrev main_call1_v2 : Ref sig .tc := ⟨.hbm, 171, rfl⟩
abbrev main_call1_v3 : Ref sig .tc := ⟨.hbm, 172, rfl⟩
abbrev main_call1_v4 : Ref sig .tc := ⟨.hbm, 173, rfl⟩
abbrev main_call1_v5 : Ref sig .tc := ⟨.hbm, 174, rfl⟩
abbrev main_call1_v6 : Ref sig .tc := ⟨.hbm, 175, rfl⟩
abbrev main_call1_v7 : Ref sig .tc := ⟨.hbm, 176, rfl⟩
abbrev main_call1_v8 : Ref sig .tc := ⟨.hbm, 177, rfl⟩
abbrev main_call1_v9 : Ref sig .tc := ⟨.hbm, 178, rfl⟩
abbrev main_call1_v10 : Ref sig .tc := ⟨.hbm, 179, rfl⟩
abbrev main_call1_v11 : Ref sig .tc := ⟨.hbm, 180, rfl⟩
abbrev main_v127 : Ref sig .tc := ⟨.hbm, 181, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  concatenates_S100000x127_S100000x1_S100000x128_d1 : Shape.Concatenates [S100000x127, S100000x1] S100000x128 1
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S100000x128_S128x64_S100000x64_1_0_0_1_n_n_wf : DotDims.WF S100000x128 S128x64 S100000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

class Facts : Prop extends Facts₀ where

variable [Facts]
-- ==== Proof.KernelRun.lean ====
/-
  The idealized kernel program's run with its two results NAMED: every weakly fair execution of @main ends with each
  result buffer holding what the last segment boundary's contents say (`W11`: the fold of the four host stretches and
  the seven regions from the launch memory), the arguments unchanged.  The frame theorem of the same program keeps only
  the arguments; the values of the results are read off this one.
-/
import proofs.«153344_j5583457485491_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the regions theorem's implicit arguments are found by unifying its conclusion with this statement, which takes
-- unfolding plain definitions in a metavariable's type
set_option backward.isDefEq.respectTransparency.types false in
theorem run_values : θ_run defs (onTc (τ := τ) (main (F := F))) ⟨m, fun _ => 0, ρ⟩ (fun r => ∀ c : Dev nD,
      r.2.mem ((c.tc : Thread nD τ).loc main_v61) = W11 m ρ c (Proc.devRef .tc main_v61)
      ∧ r.2.mem ((c.tc : Thread nD τ).loc main_v77) = W11 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v61 (by decide)),
       h c _ (mem_uc main_v77 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.Results

end
-- ==== Proof.KernelFold.lean ====
/-
  The contents of the idealized kernel program's buffers at each boundary between a stretch of host operations and a
  pallas_call, followed from the launch memory to the two results.  Each value is named by the stage of the reference
  program that computes the same array (its `val_` functions): the host stretches of the two programs are the same
  operations on the same operands, and each pallas_call leaves the array the specification names, which is the
  reference's stage again.
-/
import proofs.«153344_j5583457485491_1_alg».proof.Proof.Gen.KernelIdeal.Frame
import proofs.«153344_j5583457485491_1_alg».proof.Proof.Gen.ReferenceIdeal.Read
import Idealize.ShloMosaic.Lib.ValueLayout

set_option maxRecDepth 16384

noncomputable section

namespace Cert.KernelIdeal.Fold

open Cert.KernelIdeal Cert.KernelIdeal.Gen Idealize.ShloMosaic Idealize.ShloMosaic.TcCoe Idealize.SL.Sem
open Cert.ReferenceIdeal.Read
open Idealize.ShloMosaic.ValueIdx

variable (m : (ℓ : Loc nD τ sig) → Buf (Elt Ideal) ℓ) (ρ : Dev nD → PrngReg)

/-- A buffer no operation of a host stretch writes holds after the stretch what it held before. -/
macro "host_keep" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

local notation "𝕍" => Valuation τ sig (Elt Ideal)

/-! ## The host stretches, over any contents `w` at their entry

The kernel program's host operations are the reference's own, in the same order on the same operands: each buffer a
stretch writes holds the reference's stage of the same name of what the stretch found. -/

/-- The edge sources with the self loops appended. -/
theorem stretch0_v3 (w : 𝕍) :
    StableHlo.after hostOps0 w (Proc.devRef .tc main_v3) = val_main_v3 (F := Ideal) (w (Proc.devRef .tc main_arg2)) := by
  after_results_simp
  rfl

/-- The edge targets with the self loops appended. -/
theorem stretch0_v6 (w : 𝕍) :
    StableHlo.after hostOps0 w (Proc.devRef .tc main_v6) = val_main_v6 (F := Ideal) (w (Proc.devRef .tc main_arg2)) := by
  after_results_simp
  rfl

/-- The symmetric normalisation: one weight per edge, the product of the two endpoints' inverse root degrees. -/
theorem stretch0_v28 (w : 𝕍) :
    StableHlo.after hostOps0 w (Proc.devRef .tc main_v28) = val_main_v31 (F := Ideal) (w (Proc.devRef .tc main_arg2)) := by
  after_results_simp
  rfl

/-- The reference computes the edge weights three times, once per layer; the three stages are one function. -/
theorem norm_second (x2) : val_main_v71 (F := Ideal) x2 = val_main_v31 (F := Ideal) x2 := rfl
theorem norm_third (x2) : val_main_v110 (F := Ideal) x2 = val_main_v31 (F := Ideal) x2 := rfl

/-- A bias vector as a one-row matrix: the kernel program reshapes it, the reference broadcasts it; entry `(0, j)` of
    both is entry `j` of the vector. -/
theorem row128 (x : (⟨Cert.ReferenceIdeal.S128, .f32⟩ : BufTy).Contents (Elt Ideal)) :
    shapeCast S1x128 x shapeCasts_S128_S1x128 = val_main_v45 (F := Ideal) x := by
  funext i
  obtain ⟨u, j, rfl⟩ : ∃ (u : Fin 1) (j : Fin 128), i = ix2 u j := ⟨i 0, i 1, eq_ix2 i⟩
  rw [val_main_v45_apply]
  exact (shapeCast_a_1a_apply x shapeCasts_S128_S1x128 u j).trans (congrArg x (funext fun a => by
    match a with
    | ⟨0, _⟩ => rfl))
theorem row64 (x : (⟨Cert.ReferenceIdeal.S64, .f32⟩ : BufTy).Contents (Elt Ideal)) :
    shapeCast S1x64 x shapeCasts_S64_S1x64 = val_main_v85 (F := Ideal) x := by
  funext i
  obtain ⟨u, j, rfl⟩ : ∃ (u : Fin 1) (j : Fin 64), i = ix2 u j := ⟨i 0, i 1, eq_ix2 i⟩
  rw [val_main_v85_apply]
  exact (shapeCast_a_1a_apply x shapeCasts_S64_S1x64 u j).trans (congrArg x (funext fun a => by
    match a with
    | ⟨0, _⟩ => rfl))
theorem row64' (x : (⟨Cert.ReferenceIdeal.S64, .f32⟩ : BufTy).Contents (Elt Ideal)) :
    val_main_v124 (F := Ideal) x = val_main_v85 (F := Ideal) x := rfl

/-- The first layer's aggregation: every edge's weighted source row added into its target row. -/
theorem stretch2_v43 (w : 𝕍) (x0 x1 x2 x3)
    (h28 : w (Proc.devRef .tc main_v28) = val_main_v31 (F := Ideal) x2)
    (h3 : w (Proc.devRef .tc main_v3) = val_main_v3 (F := Ideal) x2)
    (h6 : w (Proc.devRef .tc main_v6) = val_main_v6 (F := Ideal) x2)
    (h30 : w (Proc.devRef .tc main_v30) = val_main_v9 (F := Ideal) x0 x1 x3) :
    StableHlo.after hostOps2 w (Proc.devRef .tc main_v43) = val_main_v44 (F := Ideal) x0 x1 x2 x3 := by
  after_results_simp
  rw [h28, h3, h6, h30]
  rfl

theorem stretch2_v44 (w : 𝕍) :
    StableHlo.after hostOps2 w (Proc.devRef .tc main_v44) = val_main_v45 (F := Ideal) (w (Proc.devRef .tc main_arg4)) := by
  after_results_simp
  exact row128 _

/-- The second layer's aggregation (the mean head). -/
theorem stretch4_v59 (w : 𝕍) (x0 x1 x2 x3 x4 x5)
    (h28 : w (Proc.devRef .tc main_v28) = val_main_v31 (F := Ideal) x2)
    (h3 : w (Proc.devRef .tc main_v3) = val_main_v3 (F := Ideal) x2)
    (h6 : w (Proc.devRef .tc main_v6) = val_main_v6 (F := Ideal) x2)
    (h46 : w (Proc.devRef .tc main_v46) = val_main_v49 (F := Ideal) x0 x1 x2 x3 x4 x5) :
    StableHlo.after hostOps4 w (Proc.devRef .tc main_v59) = val_main_v84 (F := Ideal) x0 x1 x2 x3 x4 x5 := by
  after_results_simp
  rw [h28, h3, h6, h46, ← norm_second]
  rfl

theorem stretch4_v60 (w : 𝕍) :
    StableHlo.after hostOps4 w (Proc.devRef .tc main_v60) = val_main_v85 (F := Ideal) (w (Proc.devRef .tc main_arg6)) := by
  after_results_simp
  exact row64 _

/-- The third layer's aggregation (the log-deviation head). -/
theorem stretch6_v75 (w : 𝕍) (x0 x1 x2 x3 x4 x7)
    (h28 : w (Proc.devRef .tc main_v28) = val_main_v31 (F := Ideal) x2)
    (h3 : w (Proc.devRef .tc main_v3) = val_main_v3 (F := Ideal) x2)
    (h6 : w (Proc.devRef .tc main_v6) = val_main_v6 (F := Ideal) x2)
    (h62 : w (Proc.devRef .tc main_v62) = val_main_v88 (F := Ideal) x0 x1 x2 x3 x4 x7) :
    StableHlo.after hostOps6 w (Proc.devRef .tc main_v75) = val_main_v123 (F := Ideal) x0 x1 x2 x3 x4 x7 := by
  after_results_simp
  rw [h28, h3, h6, h62, ← norm_third]
  rfl

theorem stretch6_v76 (w : 𝕍) :
    StableHlo.after hostOps6 w (Proc.devRef .tc main_v76) = val_main_v124 (F := Ideal) (w (Proc.devRef .tc main_arg8)) := by
  after_results_simp
  exact (row64 _).trans (row64' _).symm

/-! ## The regions, as the reference's stages

Each pallas_call leaves in its output array the specification's function of the arrays it found, and the reference's
stage of the same arrays is that function too.  The seven facts, bundled (the modules that prove them are cited where
the bundle is built): -/

structure Stages : Prop where
  s0 : ∀ (V : (c : Dev nD) → (b : Ref sig .tc) → Buf (Elt Ideal) ((c : Thread nD τ).loc b)) (c : Dev nD),
    (dat0 V c).arrAt 2 cfg0.N = val_main_v8 (F := Ideal) (V c main_arg0) (V c main_arg1)
  s1 : ∀ (V : (c : Dev nD) → (b : Ref sig .tc) → Buf (Elt Ideal) ((c : Thread nD τ).loc b)) (c : Dev nD) x0 x1, V c main_v29 = val_main_v8 (F := Ideal) x0 x1 →
    (dat1 V c).arrAt 2 cfg1.N = val_main_v9 (F := Ideal) x0 x1 (V c main_arg3)
  s2 : ∀ (V : (c : Dev nD) → (b : Ref sig .tc) → Buf (Elt Ideal) ((c : Thread nD τ).loc b)) (c : Dev nD) x0 x1 x2 x3 x4, V c main_v43 = val_main_v44 (F := Ideal) x0 x1 x2 x3 →
    V c main_v44 = val_main_v45 (F := Ideal) x4 →
    (dat2 V c).arrAt 2 cfg2.N = val_main_v48 (F := Ideal) x0 x1 x2 x3 x4
  s3 : ∀ (V : (c : Dev nD) → (b : Ref sig .tc) → Buf (Elt Ideal) ((c : Thread nD τ).loc b)) (c : Dev nD) x0 x1 x2 x3 x4, V c main_v45 = val_main_v48 (F := Ideal) x0 x1 x2 x3 x4 →
    (dat3 V c).arrAt 2 cfg3.N = val_main_v49 (F := Ideal) x0 x1 x2 x3 x4 (V c main_arg5)
  s4 : ∀ (V : (c : Dev nD) → (b : Ref sig .tc) → Buf (Elt Ideal) ((c : Thread nD τ).loc b)) (c : Dev nD) x0 x1 x2 x3 x4 x5 x6, V c main_v59 = val_main_v84 (F := Ideal) x0 x1 x2 x3 x4 x5 →
    V c main_v60 = val_main_v85 (F := Ideal) x6 →
    (dat4 V c).arrAt 2 cfg4.N = val_main_v87 (F := Ideal) x0 x1 x2 x3 x4 x5 x6
  s5 : ∀ (V : (c : Dev nD) → (b : Ref sig .tc) → Buf (Elt Ideal) ((c : Thread nD τ).loc b)) (c : Dev nD) x0 x1 x2 x3 x4, V c main_v45 = val_main_v48 (F := Ideal) x0 x1 x2 x3 x4 →
    (dat5 V c).arrAt 2 cfg5.N = val_main_v88 (F := Ideal) x0 x1 x2 x3 x4 (V c main_arg7)
  s6 : ∀ (V : (c : Dev nD) → (b : Ref sig .tc) → Buf (Elt Ideal) ((c : Thread nD τ).loc b)) (c : Dev nD) x0 x1 x2 x3 x4 x7 x8, V c main_v75 = val_main_v123 (F := Ideal) x0 x1 x2 x3 x4 x7 →
    V c main_v76 = val_main_v124 (F := Ideal) x8 →
    (dat6 V c).arrAt 2 cfg6.N = val_main_v127 (F := Ideal) x0 x1 x2 x3 x4 x7 x8

/-! ## Buffers a step does not write

A region writes only its output array; a host stretch writes only its operations' results.  Everything else is
carried across the step unchanged. -/

macro "back1" : tactic => `(tactic| refine (show W1 _ _ _ _ = W0 _ _ _ _ from by (show StableHlo.after hostOps0 _ _ = _; host_keep hostOps0)).trans ?_)
macro "back4" : tactic => `(tactic| refine (show W4 _ _ _ _ = W3 _ _ _ _ from by (show StableHlo.after hostOps2 _ _ = _; host_keep hostOps2)).trans ?_)
macro "back7" : tactic => `(tactic| refine (show W7 _ _ _ _ = W6 _ _ _ _ from by (show StableHlo.after hostOps4 _ _ = _; host_keep hostOps4)).trans ?_)
macro "back10" : tactic => `(tactic| refine (show W10 _ _ _ _ = W9 _ _ _ _ from by (show StableHlo.after hostOps6 _ _ = _; host_keep hostOps6)).trans ?_)
macro "back2" : tactic => `(tactic| refine (W2_of_ne _ _ _ _ (by decide)).trans ?_)
macro "back3" : tactic => `(tactic| refine (W3_of_ne _ _ _ _ (by decide)).trans ?_)
macro "back5" : tactic => `(tactic| refine (W5_of_ne _ _ _ _ (by decide)).trans ?_)
macro "back6" : tactic => `(tactic| refine (W6_of_ne _ _ _ _ (by decide)).trans ?_)
macro "back8" : tactic => `(tactic| refine (W8_of_ne _ _ _ _ (by decide)).trans ?_)
macro "back9" : tactic => `(tactic| refine (W9_of_ne _ _ _ _ (by decide)).trans ?_)
macro "back11" : tactic => `(tactic| refine (W11_of_ne _ _ _ _ (by decide)).trans ?_)

/-! ## The arguments, where they are read -/

theorem W1_arg0 (c : Dev nD) : W1 m ρ c (Proc.devRef .tc main_arg0) = (m ((c.tc : Thread nD τ).loc main_arg0)) := by
  back1; rfl
theorem W1_arg1 (c : Dev nD) : W1 m ρ c (Proc.devRef .tc main_arg1) = (m ((c.tc : Thread nD τ).loc main_arg1)) := by
  back1; rfl
theorem W2_arg3 (c : Dev nD) : W2 m ρ c (Proc.devRef .tc main_arg3) = (m ((c.tc : Thread nD τ).loc main_arg3)) := by
  back2; back1; rfl
theorem W3_arg4 (c : Dev nD) : W3 m ρ c (Proc.devRef .tc main_arg4) = (m ((c.tc : Thread nD τ).loc main_arg4)) := by
  back3; back2; back1; rfl
theorem W5_arg5 (c : Dev nD) : W5 m ρ c (Proc.devRef .tc main_arg5) = (m ((c.tc : Thread nD τ).loc main_arg5)) := by
  back5; back4; back3; back2; back1; rfl
theorem W6_arg6 (c : Dev nD) : W6 m ρ c (Proc.devRef .tc main_arg6) = (m ((c.tc : Thread nD τ).loc main_arg6)) := by
  back6; back5; back4; back3; back2; back1; rfl
theorem W8_arg7 (c : Dev nD) : W8 m ρ c (Proc.devRef .tc main_arg7) = (m ((c.tc : Thread nD τ).loc main_arg7)) := by
  back8; back7; back6; back5; back4; back3; back2; back1; rfl
theorem W9_arg8 (c : Dev nD) : W9 m ρ c (Proc.devRef .tc main_arg8) = (m ((c.tc : Thread nD τ).loc main_arg8)) := by
  back9; back8; back7; back6; back5; back4; back3; back2; back1; rfl

/-! ## The edge lists and the edge weights, computed once and read by all three layers -/

theorem W1_v3 (c : Dev nD) : W1 m ρ c (Proc.devRef .tc main_v3) = val_main_v3 (F := Ideal) (m ((c.tc : Thread nD τ).loc main_arg2)) := stretch0_v3 (W0 m ρ c)
theorem W1_v6 (c : Dev nD) : W1 m ρ c (Proc.devRef .tc main_v6) = val_main_v6 (F := Ideal) (m ((c.tc : Thread nD τ).loc main_arg2)) := stretch0_v6 (W0 m ρ c)
theorem W1_v28 (c : Dev nD) : W1 m ρ c (Proc.devRef .tc main_v28) = val_main_v31 (F := Ideal) (m ((c.tc : Thread nD τ).loc main_arg2)) := stretch0_v28 (W0 m ρ c)
theorem W3_v3 (c : Dev nD) : W3 m ρ c (Proc.devRef .tc main_v3) = val_main_v3 (F := Ideal) (m ((c.tc : Thread nD τ).loc main_arg2)) := by
  back3; back2; exact W1_v3 m ρ c
theorem W3_v6 (c : Dev nD) : W3 m ρ c (Proc.devRef .tc main_v6) = val_main_v6 (F := Ideal) (m ((c.tc : Thread nD τ).loc main_arg2)) := by
  back3; back2; exact W1_v6 m ρ c
theorem W3_v28 (c : Dev nD) : W3 m ρ c (Proc.devRef .tc main_v28) = val_main_v31 (F := Ideal) (m ((c.tc : Thread nD τ).loc main_arg2)) := by
  back3; back2; exact W1_v28 m ρ c
theorem W6_v3 (c : Dev nD) : W6 m ρ c (Proc.devRef .tc main_v3) = val_main_v3 (F := Ideal) (m ((c.tc : Thread nD τ).loc main_arg2)) := by
  back6; back5; back4; exact W3_v3 m ρ c
theorem W6_v6 (c : Dev nD) : W6 m ρ c (Proc.devRef .tc main_v6) = val_main_v6 (F := Ideal) (m ((c.tc : Thread nD τ).loc main_arg2)) := by
  back6; back5; back4; exact W3_v6 m ρ c
theorem W6_v28 (c : Dev nD) : W6 m ρ c (Proc.devRef .tc main_v28) = val_main_v31 (F := Ideal) (m ((c.tc : Thread nD τ).loc main_arg2)) := by
  back6; back5; back4; exact W3_v28 m ρ c
theorem W9_v3 (c : Dev nD) : W9 m ρ c (Proc.devRef .tc main_v3) = val_main_v3 (F := Ideal) (m ((c.tc : Thread nD τ).loc main_arg2)) := by
  back9; back8; back7; exact W6_v3 m ρ c
theorem W9_v6 (c : Dev nD) : W9 m ρ c (Proc.devRef .tc main_v6) = val_main_v6 (F := Ideal) (m ((c.tc : Thread nD τ).loc main_arg2)) := by
  back9; back8; back7; exact W6_v6 m ρ c
theorem W9_v28 (c : Dev nD) : W9 m ρ c (Proc.devRef .tc main_v28) = val_main_v31 (F := Ideal) (m ((c.tc : Thread nD τ).loc main_arg2)) := by
  back9; back8; back7; exact W6_v28 m ρ c

/-! ## The layers, in order -/

section Layers
variable (S : Stages)
include S

/-- After the first kernel: the features in absolute value. -/
theorem W2_v29 (c : Dev nD) : W2 m ρ c (Proc.devRef .tc main_v29) = val_main_v8 (F := Ideal) (m ((c.tc : Thread nD τ).loc main_arg0)) (m ((c.tc : Thread nD τ).loc main_arg1)) :=
  (W2_arr m ρ c 2).trans ((S.s0 (V1 m ρ) c).trans (congrArg₂ (val_main_v8 (F := Ideal)) (W1_arg0 m ρ c) (W1_arg1 m ρ c)))

/-- After the second kernel: the first dense layer. -/
theorem W3_v30 (c : Dev nD) : W3 m ρ c (Proc.devRef .tc main_v30) = val_main_v9 (F := Ideal) (m ((c.tc : Thread nD τ).loc main_arg0)) (m ((c.tc : Thread nD τ).loc main_arg1)) (m ((c.tc : Thread nD τ).loc main_arg3)) :=
  (W3_arr m ρ c 2).trans ((S.s1 (V2 m ρ) c _ _ (W2_v29 m ρ S c)).trans
    (congrArg (val_main_v9 (F := Ideal) (m ((c.tc : Thread nD τ).loc main_arg0)) (m ((c.tc : Thread nD τ).loc main_arg1))) (W2_arg3 m ρ c)))

/-- After the second host stretch: the first aggregation, and the first bias as a row. -/
theorem W4_v43 (c : Dev nD) : W4 m ρ c (Proc.devRef .tc main_v43) = val_main_v44 (F := Ideal) (m ((c.tc : Thread nD τ).loc main_arg0)) (m ((c.tc : Thread nD τ).loc main_arg1)) (m ((c.tc : Thread nD τ).loc main_arg2)) (m ((c.tc : Thread nD τ).loc main_arg3)) :=
  stretch2_v43 (W3 m ρ c) _ _ _ _ (W3_v28 m ρ c) (W3_v3 m ρ c) (W3_v6 m ρ c) (W3_v30 m ρ S c)
theorem W4_v44 (c : Dev nD) : W4 m ρ c (Proc.devRef .tc main_v44) = val_main_v45 (F := Ideal) (m ((c.tc : Thread nD τ).loc main_arg4)) :=
  (stretch2_v44 (W3 m ρ c)).trans (congrArg (val_main_v45 (F := Ideal)) (W3_arg4 m ρ c))

/-- After the third kernel: the hidden layer. -/
theorem W5_v45 (c : Dev nD) : W5 m ρ c (Proc.devRef .tc main_v45) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W5_arr m ρ c 2).trans (S.s2 (V4 m ρ) c _ _ _ _ _ (W4_v43 m ρ S c) (W4_v44 m ρ S c))
theorem W8_v45 (c : Dev nD) : W8 m ρ c (Proc.devRef .tc main_v45) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  back8; back7
  -- the hidden layer is the fourth kernel's left operand: an input window's array is left as it was found
  refine ((W6_arr m ρ c 0).trans (((dat3 (V5 m ρ) c).arrAt_in 0 rfl _).trans (A_eq3 (V5 m ρ) c 0))).trans ?_
  exact W5_v45 m ρ S c

/-- After the fourth kernel: the mean head's dense layer. -/
theorem W6_v46 (c : Dev nD) : W6 m ρ c (Proc.devRef .tc main_v46) = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W6_arr m ρ c 2).trans ((S.s3 (V5 m ρ) c _ _ _ _ _ (W5_v45 m ρ S c)).trans
    (congrArg (val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (W5_arg5 m ρ c)))

/-- After the third host stretch: the mean head's aggregation, and its bias as a row. -/
theorem W7_v59 (c : Dev nD) : W7 m ρ c (Proc.devRef .tc main_v59) = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  stretch4_v59 (W6 m ρ c) _ _ _ _ _ _ (W6_v28 m ρ c) (W6_v3 m ρ c) (W6_v6 m ρ c) (W6_v46 m ρ S c)
theorem W7_v60 (c : Dev nD) : W7 m ρ c (Proc.devRef .tc main_v60) = val_main_v85 (F := Ideal) (m ((c.tc : Thread nD τ).loc main_arg6)) :=
  (stretch4_v60 (W6 m ρ c)).trans (congrArg (val_main_v85 (F := Ideal)) (W6_arg6 m ρ c))

/-- After the fifth kernel: the first result. -/
theorem W8_v61 (c : Dev nD) : W8 m ρ c (Proc.devRef .tc main_v61) = val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (W8_arr m ρ c 2).trans (S.s4 (V7 m ρ) c _ _ _ _ _ _ _ (W7_v59 m ρ S c) (W7_v60 m ρ S c))

/-- After the sixth kernel: the deviation head's dense layer. -/
theorem W9_v62 (c : Dev nD) : W9 m ρ c (Proc.devRef .tc main_v62) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) :=
  (W9_arr m ρ c 2).trans ((S.s5 (V8 m ρ) c _ _ _ _ _ (W8_v45 m ρ S c)).trans
    (congrArg (val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (W8_arg7 m ρ c)))

/-- After the fourth host stretch: the deviation head's aggregation, and its bias as a row. -/
theorem W10_v75 (c : Dev nD) : W10 m ρ c (Proc.devRef .tc main_v75) = val_main_v123 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) :=
  stretch6_v75 (W9 m ρ c) _ _ _ _ _ _ (W9_v28 m ρ c) (W9_v3 m ρ c) (W9_v6 m ρ c) (W9_v62 m ρ S c)
theorem W10_v76 (c : Dev nD) : W10 m ρ c (Proc.devRef .tc main_v76) = val_main_v124 (F := Ideal) (m ((c.tc : Thread nD τ).loc main_arg8)) :=
  (stretch6_v76 (W9 m ρ c)).trans (congrArg (val_main_v124 (F := Ideal)) (W9_arg8 m ρ c))

/-- At the return: the two results are the reference's two results of the same arguments. -/
theorem result1 (c : Dev nD) : W11 m ρ c (Proc.devRef .tc main_v77) = val_main_v127 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) :=
  (W11_arr m ρ c 2).trans (S.s6 (V10 m ρ) c _ _ _ _ _ _ _ (W10_v75 m ρ S c) (W10_v76 m ρ S c))
theorem result0 (c : Dev nD) : W11 m ρ c (Proc.devRef .tc main_v61) = val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  back11; back10; back9; exact W8_v61 m ρ S c

end Layers

end Cert.KernelIdeal.Fold

end
-- ==== Proof.SpecBase.lean ====
/-
  The matrices of the specification: a matrix with `r` rows and `c` columns is a function from its index pairs to the
  extended reals.
-/
import Idealize.ShloMosaic.PureOps.Ideal
import Idealize.ShloMosaic.Lib.ValueIdx

noncomputable section

namespace Cert.Spec

open Idealize.ShloMosaic

/-- An `r × c` matrix of extended reals. -/
abbrev Mat (r c : Nat) := (⟨2, ![r, c]⟩ : Shape).Idx → EReal

end Cert.Spec

end
-- ==== Proof.SpecAbsCat.lean ====
/-
  The first layer's input of the specification: the 127 feature columns and the one label column side by side, in
  absolute value.
-/
import proofs.«153344_j5583457485491_1_alg».proof.Proof.SpecBase

noncomputable section

namespace Cert.Spec

open Idealize.ShloMosaic Idealize.ShloMosaic.ValueIdx

/-- `|[x | y]|`: column `j < 127` of the result is `|x[·, j]|`, column 127 is `|y[·, 0]|`. -/
def absCat (x : Mat 100000 127) (y : Mat 100000 1) : Mat 100000 128 := fun i =>
  if h : (i 1).val < 127 then
    (fun v : EReal => max v (-v)) (x (ix2 (⟨(i 0).val, (i 0).isLt⟩ : Fin 100000) (⟨(i 1).val, h⟩ : Fin 127)))
  else
    (fun v : EReal => max v (-v)) (y (ix2 (⟨(i 0).val, (i 0).isLt⟩ : Fin 100000) (⟨0, Nat.one_pos⟩ : Fin 1)))

end Cert.Spec

end
-- ==== Proof.Region0AbsConcat.lean ====
/-
  The first kernel of the program lays the 127 feature columns and the one label column of a 100000-row array side
  by side and takes the absolute value of every entry, 10000 rows per grid point:
  out[r, j] = |x[r, j]| for j < 127, out[r, 127] = |y[r, 0]|.  Here: the array the region leaves is that function of
  the two arrays it found, index by index, at the ideal instance (|v| is max v (-v) on the extended reals).
-/
import proofs.«153344_j5583457485491_1_alg».proof.Proof.Gen.KernelIdeal.Frame
import proofs.«153344_j5583457485491_1_alg».proof.Proof.SpecAbsCat
import Idealize.ShloMosaic.Lib.Pipeline.Value
import Idealize.ShloMosaic.Lib.ValueIdx
import Idealize.ShloMosaic.Lib.ValueLayout

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- One block's payload at a column below 127: the absolute value of the features' entry at the same row and column. -/
theorem pay_left (x0 : Vec Ideal S10000x127 .f32) (x1 : Vec Ideal S10000x1 .f32) (j : S10000x128.Idx) (k : S10000x127.Idx)
    (hk0 : (k 0).val = (j 0).val) (hk1 : (k 1).val = (j 1).val) :
    k0_pay1 x0 x1 j = max (x0 k) (-(x0 k)) :=
  congrArg (fun v : EReal => max v (-v))
    (concatenate_pair_apply_left (1 : Fin 2) x0 x1 concatenates_S10000x127_S10000x1_S10000x128_d1 j rfl k (fun b => by
      match b with
      | ⟨0, _⟩ => exact hk0
      | ⟨1, _⟩ => exact hk1))

/-- One block's payload at column 127: the absolute value of the labels' entry at the same row, column 0. -/
theorem pay_right (x0 : Vec Ideal S10000x127 .f32) (x1 : Vec Ideal S10000x1 .f32) (j : S10000x128.Idx) (k : S10000x1.Idx)
    (hk0 : (k 0).val = (j 0).val) (hk1 : (k 1).val = 0) (h : ¬ (j 1).val < 127) :
    k0_pay1 x0 x1 j = max (x1 k) (-(x1 k)) :=
  congrArg (fun v : EReal => max v (-v))
    (concatenate_pair_apply_right (1 : Fin 2) x0 x1 concatenates_S10000x127_S10000x1_S10000x128_d1 j rfl rfl k
      (fun b hb => by
        match b with
        | ⟨0, _⟩ => exact hk0
        | ⟨1, _⟩ => exact absurd rfl hb)
      (by
        have h1 : (j 1).val < 128 := (j 1).isLt
        show (k 1).val + 127 = (j 1).val
        omega))

/-- The specification at a column below 127. -/
theorem absCat_left (A : S100000x127.Idx → EReal) (B : S100000x1.Idx → EReal) (i : S100000x128.Idx) (h : (i 1).val < 127) :
    Spec.absCat A B i = (fun v : EReal => max v (-v)) (A (ix2 (⟨(i 0).val, (i 0).isLt⟩ : Fin 100000) (⟨(i 1).val, h⟩ : Fin 127))) := by
  unfold Spec.absCat
  rw [dif_pos h]

/-- The specification at column 127. -/
theorem absCat_right (A : S100000x127.Idx → EReal) (B : S100000x1.Idx → EReal) (i : S100000x128.Idx) (h : ¬ (i 1).val < 127) :
    Spec.absCat A B i = (fun v : EReal => max v (-v)) (B (ix2 (⟨(i 0).val, (i 0).isLt⟩ : Fin 100000) (⟨0, Nat.one_pos⟩ : Fin 1))) := by
  unfold Spec.absCat
  rw [dif_neg h]

/-- The printed index maps over the ten grid points: all three row blocks move with the point, on the column axis
    each window has its one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Block t of the payload over the blocks of A and B is block t of the absolute value of A and B side by side. -/
theorem block_eq (A : S100000x127.Idx → EReal) (B : S100000x1.Idx → EReal) (t : Fin cfg0.N) (j : S10000x128.Idx) :
    k0_pay1 (F := Ideal) (fun y => A (((cfg0.win 0).blk t).view.emb y)) (fun y => B (((cfg0.win 1).blk t).view.emb y)) j
      = Spec.absCat A B (((cfg0.win 2).blk t).view.emb j) := by
  obtain ⟨e0, e1, e2, e3, e4, e5⟩ := idx_facts t
  have hc : ((((cfg0.win 2).blk t).view.emb j) 1).val = (j 1).val := by
    show win0_2.index t (1 : Fin 2) * 128 + 1 * (j 1).val = (j 1).val; omega
  by_cases h : (j 1).val < 127
  · have h' : ((((cfg0.win 2).blk t).view.emb j) 1).val < 127 := by rw [hc]; exact h
    let k : S10000x127.Idx := fun a => match a with
      | ⟨0, _⟩ => ⟨(j 0).val, (j 0).isLt⟩
      | ⟨1, _⟩ => ⟨(j 1).val, h⟩
    refine (pay_left _ _ j k rfl rfl).trans ?_
    refine Eq.trans ?_ (absCat_left A B _ h').symm
    have h0 : ((cfg0.win 0).blk t).view.emb k
        = ix2 (⟨((((cfg0.win 2).blk t).view.emb j) 0).val, ((((cfg0.win 2).blk t).view.emb j) 0).isLt⟩ : Fin 100000)
            (⟨((((cfg0.win 2).blk t).view.emb j) 1).val, h'⟩ : Fin 127) := by
      funext a; apply Fin.ext
      match a with
      | ⟨0, _⟩ => show win0_0.index t (0 : Fin 2) * 10000 + 1 * (j 0).val = win0_2.index t (0 : Fin 2) * 10000 + 1 * (j 0).val; omega
      | ⟨1, _⟩ => show win0_0.index t (1 : Fin 2) * 127 + 1 * (j 1).val = win0_2.index t (1 : Fin 2) * 128 + 1 * (j 1).val; omega
    exact congrArg (fun v : EReal => max v (-v)) (congrArg A h0)
  · have h' : ¬ ((((cfg0.win 2).blk t).view.emb j) 1).val < 127 := by rw [hc]; exact h
    let k : S10000x1.Idx := fun a => match a with
      | ⟨0, _⟩ => ⟨(j 0).val, (j 0).isLt⟩
      | ⟨1, _⟩ => ⟨0, Nat.one_pos⟩
    refine (pay_right _ _ j k rfl rfl h).trans ?_
    refine Eq.trans ?_ (absCat_right A B _ h').symm
    have h1 : ((cfg0.win 1).blk t).view.emb k
        = ix2 (⟨((((cfg0.win 2).blk t).view.emb j) 0).val, ((((cfg0.win 2).blk t).view.emb j) 0).isLt⟩ : Fin 100000)
            (⟨0, Nat.one_pos⟩ : Fin 1) := by
      funext a; apply Fin.ext
      match a with
      | ⟨0, _⟩ => show win0_1.index t (0 : Fin 2) * 10000 + 1 * (j 0).val = win0_2.index t (0 : Fin 2) * 10000 + 1 * (j 0).val; omega
      | ⟨1, _⟩ => show win0_1.index t (1 : Fin 2) * 1 + 1 * 0 = 0; omega
    exact congrArg (fun v : EReal => max v (-v)) (congrArg B h1)

/-- What point t writes back is block t of the absolute value of the two arrays side by side. -/
theorem flushed_eq (c : Dev nD) (t : Fin cfg0.N) :
    (dat0 V c).flushed 2 t = ((cfg0.win 2).blk t).view.read (Elt Ideal) (Spec.absCat (V c main_arg0) (V c main_arg1)) := by
  show (cfg0.win 2).cut (grid0.coords t) ((dat0 V c).after 2 t) = _
  rw [after0_2]
  unfold out0_2
  rw [View.canon_unit_zero hz]
  simp only [View.ld_unit_zero (S := S10000x127) hz, View.ld_unit_zero (S := S10000x1) hz]
  funext j
  exact block_eq (V c main_arg0) (V c main_arg1) t j

/-- An index of the array is in point t's block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v29).slice (win0_2.rect t)).set ↔ _
  rw [View.set_slice_whole, Rect.mem_set_unit]
  exact Iff.rfl

/-- Row r lies in the block of point r / 10000: the ten blocks cover the array. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  let t : Fin cfg0.N := ⟨(i 0).val / 10000, by show (i 0).val / 10000 < grid0.N; omega⟩
  obtain ⟨-, -, -, -, e4, e5⟩ := idx_facts t
  have e4' : win0_2.index t (0 : Fin 2) = (i 0).val / 10000 := e4
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The array region 0 leaves: the absolute value of the two arrays it found, side by side. -/
theorem value (c : Dev nD) : (dat0 V c).arrAt 2 cfg0.N = Spec.absCat (V c main_arg0) (V c main_arg1) :=
  (dat0 V c).arrAt_eq_of_cover 2 (Spec.absCat (V c main_arg0) (V c main_arg1)) (fun t _ => flushed_eq V c t) cover

end Cert.KernelIdeal.Region0

end
-- ==== Proof.SpecMatmul.lean ====
/-
  The dense layers of the specification: each row of `h` times the weight matrix, a sum of 128 products per entry.
-/
import proofs.«153344_j5583457485491_1_alg».proof.Proof.SpecBase

noncomputable section

namespace Cert.Spec

open Idealize.ShloMosaic Idealize.ShloMosaic.ValueIdx

/-- `h · w` for a 128-column weight matrix: entry `(r, j)` is `∑ k, h[r, k] · w[k, j]`. -/
def mm128 (h : Mat 100000 128) (w : Mat 128 128) : Mat 100000 128 := fun i =>
  ∑ k : Fin 128, h (ix2 (⟨(i 0).val, (i 0).isLt⟩ : Fin 100000) k) * w (ix2 k (⟨(i 1).val, (i 1).isLt⟩ : Fin 128))

/-- `h · w` for a 64-column weight matrix: entry `(r, j)` is `∑ k, h[r, k] · w[k, j]`. -/
def mm64 (h : Mat 100000 128) (w : Mat 128 64) : Mat 100000 64 := fun i =>
  ∑ k : Fin 128, h (ix2 (⟨(i 0).val, (i 0).isLt⟩ : Fin 100000) k) * w (ix2 k (⟨(i 1).val, (i 1).isLt⟩ : Fin 64))

end Cert.Spec

end
-- ==== Proof.Region1Matmul.lean ====
/-
  The second pallas_call (pipeline 1) is a dense layer: a 100000×128 array times a 128×128 weight matrix, 10000 rows per
  grid point: out[r, j] = ∑ k, h[r, k] · w[k, j].  Here: the array the region leaves is that function of the two arrays it
  found, index by index, at the ideal instance (sums and products on the extended reals, the bf16 casts the identity).
-/
import proofs.«153344_j5583457485491_1_alg».proof.Proof.Gen.KernelIdeal.Frame
import proofs.«153344_j5583457485491_1_alg».proof.Proof.SpecMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The product's left operand index at output index `j` and contraction position `k` is `(j 0, k)`. -/
theorem lhs_idx (j : S10000x128.Idx) (k : Fin 128) :
    dot_S10000x128_S128x128_S10000x128_1_0_0_1_n_n.lhsIdx j ((contrEquiv1 dot_S10000x128_S128x128_S10000x128_1_0_0_1_n_n 128 rfl rfl).symm k)
      = ix2 (⟨(j 0).val, (j 0).isLt⟩ : Fin 10000) k := by
  have hk := contrEquiv1_symm_val dot_S10000x128_S128x128_S10000x128_1_0_0_1_n_n 128 rfl rfl k
  funext a; apply Fin.ext
  match a with
  | ⟨0, _⟩ =>
    show (dot_S10000x128_S128x128_S10000x128_1_0_0_1_n_n.lhsIdx j _ 0).val = (j 0).val
    unfold DotDims.lhsIdx
    rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
    rfl
  | ⟨1, _⟩ => exact (dot_S10000x128_S128x128_S10000x128_1_0_0_1_n_n.lhsIdx_val_of_single rfl j _).trans hk

/-- The product's right operand index at output index `j` and contraction position `k` is `(k, j 1)`. -/
theorem rhs_idx (j : S10000x128.Idx) (k : Fin 128) :
    dot_S10000x128_S128x128_S10000x128_1_0_0_1_n_n.rhsIdx j ((contrEquiv1 dot_S10000x128_S128x128_S10000x128_1_0_0_1_n_n 128 rfl rfl).symm k)
      = ix2 k (⟨(j 1).val, (j 1).isLt⟩ : Fin 128) := by
  have hk := contrEquiv1_symm_val dot_S10000x128_S128x128_S10000x128_1_0_0_1_n_n 128 rfl rfl k
  funext a; apply Fin.ext
  match a with
  | ⟨0, _⟩ => exact (dot_S10000x128_S128x128_S10000x128_1_0_0_1_n_n.rhsIdx_val_of_single rfl j _).trans hk
  | ⟨1, _⟩ =>
    show (dot_S10000x128_S128x128_S10000x128_1_0_0_1_n_n.rhsIdx j _ 1).val = (j 1).val
    unfold DotDims.rhsIdx
    rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
    rfl

/-- One block's payload at an entry: the narrowing casts are the identity on extended reals and the product into a zero
    accumulator is the plain sum, so entry `(r, j)` is `∑ k, x0[r, k] · x1[k, j]`. -/
theorem pay_apply (x0 : Vec Ideal S10000x128 .f32) (x1 : Vec Ideal S128x128 .f32) (j : S10000x128.Idx) :
    k1_pay1 x0 x1 j
      = ∑ k : Fin 128, x0 (ix2 (⟨(j 0).val, (j 0).isLt⟩ : Fin 10000) k) * x1 (ix2 k (⟨(j 1).val, (j 1).isLt⟩ : Fin 128)) := by
  unfold k1_pay1
  rw [shapeCast_self]
  refine (Ideal.matmul_constant_zero_apply dot_S10000x128_S128x128_S10000x128_1_0_0_1_n_n none _ _ j).trans ?_
  rw [← Equiv.sum_comp (contrEquiv1 dot_S10000x128_S128x128_S10000x128_1_0_0_1_n_n 128 rfl rfl).symm]
  refine Finset.sum_congr rfl fun k _ => ?_
  rw [lhs_idx, rhs_idx]
  rfl

/-- The printed index maps over the ten grid points: the row blocks move with the point, the weight matrix stays. -/
theorem idx_facts : ∀ t : Fin cfg1.N, win1_0.index t (0 : Fin 2) = t.val
    ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Block `t` of the payload over the blocks of `A` and `B` is block `t` of the matrix product. -/
theorem block_eq (A : S100000x128.Idx → EReal) (B : S128x128.Idx → EReal) (t : Fin cfg1.N) (j : S10000x128.Idx) :
    k1_pay1 (F := Ideal) (fun y => A (((cfg1.win 0).blk t).view.emb y)) (fun y => B (((cfg1.win 1).blk t).view.emb y)) j
      = Spec.mm128 A B (((cfg1.win 2).blk t).view.emb j) := by
  obtain ⟨e0, e1, e2, e3, e4, e5⟩ := idx_facts t
  refine (pay_apply _ _ j).trans ?_
  unfold Spec.mm128
  refine Finset.sum_congr rfl fun k _ => ?_
  have h0 : ((cfg1.win 0).blk t).view.emb (ix2 (⟨(j 0).val, (j 0).isLt⟩ : Fin 10000) k)
      = ix2 (⟨((((cfg1.win 2).blk t).view.emb j) 0).val, ((((cfg1.win 2).blk t).view.emb j) 0).isLt⟩ : Fin 100000) k := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * k.val = k.val; omega
  have h1 : ((cfg1.win 1).blk t).view.emb (ix2 k (⟨(j 1).val, (j 1).isLt⟩ : Fin 128))
      = ix2 k (⟨((((cfg1.win 2).blk t).view.emb j) 1).val, ((((cfg1.win 2).blk t).view.emb j) 1).isLt⟩ : Fin 128) := by
    funext a; apply Fin.ext
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  show A (((cfg1.win 0).blk t).view.emb (ix2 (⟨(j 0).val, (j 0).isLt⟩ : Fin 10000) k))
      * B (((cfg1.win 1).blk t).view.emb (ix2 k (⟨(j 1).val, (j 1).isLt⟩ : Fin 128))) = _
  rw [h0, h1]

/-- What point `t` writes back is block `t` of the matrix product. -/
theorem flushed_eq (c : Dev nD) (t : Fin cfg1.N) :
    (dat1 V c).flushed 2 t = ((cfg1.win 2).blk t).view.read (Elt Ideal) (Spec.mm128 (V c main_v29) (V c main_arg3)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x128) hz]
  funext j
  exact block_eq (V c main_v29) (V c main_arg3) t j

/-- An index of the array is in point `t`'s block iff each coordinate is in the block's range on its axis. -/
theorem mem_blk (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v30).slice (win1_2.rect t)).set ↔ _
  rw [View.set_slice_whole, Rect.mem_set_unit]
  exact Iff.rfl

/-- Row `r` lies in the block of point `r / 10000`: the ten blocks cover the array. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 10 := N_1
  let t : Fin cfg1.N := ⟨(i 0).val / 10000, by show (i 0).val / 10000 < grid1.N; omega⟩
  obtain ⟨-, -, -, -, e4, e5⟩ := idx_facts t
  have e4' : win1_2.index t (0 : Fin 2) = (i 0).val / 10000 := e4
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The array region 1 leaves: the array it found times the weight matrix it found. -/
theorem value (c : Dev nD) : (dat1 V c).arrAt 2 cfg1.N = Spec.mm128 (V c main_v29) (V c main_arg3) :=
  (dat1 V c).arrAt_eq_of_cover 2 (Spec.mm128 (V c main_v29) (V c main_arg3)) (fun t _ => flushed_eq V c t) cover

end Cert.KernelIdeal.Region1

end
-- ==== Proof.SpecBias.lean ====
/-
  The epilogues of the specification: a bias row added to every row of a matrix, then nothing, a rectifier, or the
  softplus `log (1 + eˣ)` in its overflow-safe form `max x 0 + log1p (exp (-|x|))`.
-/
import proofs.«153344_j5583457485491_1_alg».proof.Proof.SpecBase

noncomputable section

namespace Cert.Spec

open Idealize.ShloMosaic Idealize.ShloMosaic.ValueIdx

/-- The bias row's entry under the column of `i`. -/
abbrev under {r c : Nat} (i : (⟨2, ![r, c]⟩ : Shape).Idx) : (⟨2, ![1, c]⟩ : Shape).Idx := fun a => match a with
  | ⟨0, _⟩ => ⟨0, Nat.one_pos⟩
  | ⟨1, _⟩ => ⟨(i 1).val, (i 1).isLt⟩

/-- The float zero the kernels and the reference compare and add with. -/
abbrev zero : EReal := Ideal.ofBits .f32 0x00000000#32

/-- Every row of `a` plus the bias row `b`. -/
def biasAdd (a : Mat 100000 64) (b : Mat 1 64) : Mat 100000 64 := fun i => a i + b (under i)

/-- Every row of `a` plus the bias row `b`, then the rectifier. -/
def biasRelu (a : Mat 100000 128) (b : Mat 1 128) : Mat 100000 128 := fun i => max (a i + b (under i)) zero

/-- The softplus of one extended real, as both programs compute it. -/
def softplus (v : EReal) : EReal :=
  max v zero + FloatOps.log1p (F := Ideal) (φ := .f32) (FloatOps.exp (F := Ideal) (φ := .f32) (-(max (v - zero) (-(v - zero)))))

/-- Every row of `a` plus the bias row `b`, then the softplus. -/
def biasSoftplus (a : Mat 100000 64) (b : Mat 1 64) : Mat 100000 64 := fun i => softplus (a i + b (under i))

end Cert.Spec

end
-- ==== Proof.Region2BiasRelu.lean ====
/-
  The third pallas_call (pipeline 2) adds a bias row to every row of a 100000×128 array and takes the maximum with
  zero, 10000 rows per grid point: out[r, j] = max (a[r, j] + b[0, j]) 0.  Here: the array the region leaves is that
  function of the two arrays it found, index by index, at the ideal instance (sums and maxima on the extended reals).
-/
import proofs.«153344_j5583457485491_1_alg».proof.Proof.Gen.KernelIdeal.Frame
import proofs.«153344_j5583457485491_1_alg».proof.Proof.SpecBias
import Idealize.ShloMosaic.Lib.Pipeline.Value
import Idealize.ShloMosaic.Lib.ValueIdx
import Idealize.ShloMosaic.Lib.ValueLayout

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- One block's payload at an entry: the block's entry plus the bias row's entry under the same column, against zero. -/
theorem pay_apply (x0 : Vec Ideal S10000x128 .f32) (x1 : Vec Ideal S1x128 .f32) (j : S10000x128.Idx) (k : S1x128.Idx)
    (hk0 : (k 0).val = 0) (hk1 : (k 1).val = (j 1).val) :
    k2_pay1 x0 x1 j = max (x0 j + x1 k) Spec.zero := by
  unfold k2_pay1
  rw [shapeCast_self, shapeCast_self]
  show max (x0 j + broadcastTo S10000x128 x1 broadcasts_S1x128_S10000x128 j) Spec.zero = _
  rw [broadcastTo_apply x1 broadcasts_S1x128_S10000x128 j k (fun a => by
    match a with
    | ⟨0, _⟩ => exact hk0
    | ⟨1, _⟩ => exact hk1)]

/-- The printed index maps over the ten grid points: the row blocks move with the point, the bias row stays. -/
theorem idx_facts : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0
    ∧ win2_2.index t (0 : Fin 2) = t.val :=
  (by decide +kernel : ∀ t : Fin grid2.N, _)

/-- Block `t` of the payload over the blocks of `A` and `B` is block `t` of the row-biased, rectified array. -/
theorem block_eq (A : S100000x128.Idx → EReal) (B : S1x128.Idx → EReal) (t : Fin cfg2.N) (j : S10000x128.Idx) :
    k2_pay1 (F := Ideal) (fun y => A (((cfg2.win 0).blk t).view.emb y)) (fun y => B (((cfg2.win 1).blk t).view.emb y)) j
      = Spec.biasRelu A B (((cfg2.win 2).blk t).view.emb j) := by
  obtain ⟨e0, e1, e2, e3, e4, e5⟩ := idx_facts t
  let k : S1x128.Idx := fun a => match a with
    | ⟨0, _⟩ => ⟨0, Nat.one_pos⟩
    | ⟨1, _⟩ => ⟨(j 1).val, (j 1).isLt⟩
  refine (pay_apply _ _ j k rfl rfl).trans ?_
  unfold Spec.biasRelu
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb k = Spec.under (((cfg2.win 2).blk t).view.emb j) := by
    funext a; apply Fin.ext
    match a with
    | ⟨0, _⟩ => show win2_1.index t (0 : Fin 2) * 1 + 1 * 0 = 0; omega
    | ⟨1, _⟩ => show win2_1.index t (1 : Fin 2) * 128 + 1 * (j 1).val = win2_2.index t (1 : Fin 2) * 128 + 1 * (j 1).val; omega
  show max (A (((cfg2.win 0).blk t).view.emb j) + B (((cfg2.win 1).blk t).view.emb k)) Spec.zero = _
  rw [h0, h1]

/-- What point `t` writes back is block `t` of the row-biased, rectified array. -/
theorem flushed_eq (c : Dev nD) (t : Fin cfg2.N) :
    (dat2 V c).flushed 2 t = ((cfg2.win 2).blk t).view.read (Elt Ideal) (Spec.biasRelu (V c main_v43) (V c main_v44)) := by
  show (cfg2.win 2).cut (grid2.coords t) ((dat2 V c).after 2 t) = _
  rw [after2_2]
  unfold out2_2
  rw [View.canon_unit_zero hz]
  simp only [View.ld_unit_zero (S := S10000x128) hz, View.ld_unit_zero (S := S1x128) hz]
  funext j
  exact block_eq (V c main_v43) (V c main_v44) t j

/-- An index of the array is in point `t`'s block iff each coordinate is in the block's range on its axis. -/
theorem mem_blk (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v45).slice (win2_2.rect t)).set ↔ _
  rw [View.set_slice_whole, Rect.mem_set_unit]
  exact Iff.rfl

/-- Row `r` lies in the block of point `r / 10000`: the ten blocks cover the array. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 10 := N_2
  let t : Fin cfg2.N := ⟨(i 0).val / 10000, by show (i 0).val / 10000 < grid2.N; omega⟩
  obtain ⟨-, -, e2, -, -, e5⟩ := idx_facts t
  have e5' : win2_2.index t (0 : Fin 2) = (i 0).val / 10000 := e5
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The array region 2 leaves: every row of the array it found plus the bias row it found, then the maximum with zero. -/
theorem value (c : Dev nD) : (dat2 V c).arrAt 2 cfg2.N = Spec.biasRelu (V c main_v43) (V c main_v44) :=
  (dat2 V c).arrAt_eq_of_cover 2 (Spec.biasRelu (V c main_v43) (V c main_v44)) (fun t _ => flushed_eq V c t) cover

end Cert.KernelIdeal.Region2

end
-- ==== Proof.Region3Matmul.lean ====
/-
  The fourth pallas_call (pipeline 3) is a dense layer: a 100000×128 array times a 128×64 weight matrix, 10000 rows per
  grid point: out[r, j] = ∑ k, h[r, k] · w[k, j].  Here: the array the region leaves is that function of the two arrays it
  found, index by index, at the ideal instance (sums and products on the extended reals, the bf16 casts the identity).
-/
import proofs.«153344_j5583457485491_1_alg».proof.Proof.Gen.KernelIdeal.Frame
import proofs.«153344_j5583457485491_1_alg».proof.Proof.SpecMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The product's left operand index at output index `j` and contraction position `k` is `(j 0, k)`. -/
theorem lhs_idx (j : S10000x64.Idx) (k : Fin 128) :
    dot_S10000x128_S128x64_S10000x64_1_0_0_1_n_n.lhsIdx j ((contrEquiv1 dot_S10000x128_S128x64_S10000x64_1_0_0_1_n_n 128 rfl rfl).symm k)
      = ix2 (⟨(j 0).val, (j 0).isLt⟩ : Fin 10000) k := by
  have hk := contrEquiv1_symm_val dot_S10000x128_S128x64_S10000x64_1_0_0_1_n_n 128 rfl rfl k
  funext a; apply Fin.ext
  match a with
  | ⟨0, _⟩ =>
    show (dot_S10000x128_S128x64_S10000x64_1_0_0_1_n_n.lhsIdx j _ 0).val = (j 0).val
    unfold DotDims.lhsIdx
    rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
    rfl
  | ⟨1, _⟩ => exact (dot_S10000x128_S128x64_S10000x64_1_0_0_1_n_n.lhsIdx_val_of_single rfl j _).trans hk

/-- The product's right operand index at output index `j` and contraction position `k` is `(k, j 1)`. -/
theorem rhs_idx (j : S10000x64.Idx) (k : Fin 128) :
    dot_S10000x128_S128x64_S10000x64_1_0_0_1_n_n.rhsIdx j ((contrEquiv1 dot_S10000x128_S128x64_S10000x64_1_0_0_1_n_n 128 rfl rfl).symm k)
      = ix2 k (⟨(j 1).val, (j 1).isLt⟩ : Fin 64) := by
  have hk := contrEquiv1_symm_val dot_S10000x128_S128x64_S10000x64_1_0_0_1_n_n 128 rfl rfl k
  funext a; apply Fin.ext
  match a with
  | ⟨0, _⟩ => exact (dot_S10000x128_S128x64_S10000x64_1_0_0_1_n_n.rhsIdx_val_of_single rfl j _).trans hk
  | ⟨1, _⟩ =>
    show (dot_S10000x128_S128x64_S10000x64_1_0_0_1_n_n.rhsIdx j _ 1).val = (j 1).val
    unfold DotDims.rhsIdx
    rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
    rfl

/-- One block's payload at an entry: the narrowing casts are the identity on extended reals and the product into a zero
    accumulator is the plain sum, so entry `(r, j)` is `∑ k, x0[r, k] · x1[k, j]`. -/
theorem pay_apply (x0 : Vec Ideal S10000x128 .f32) (x1 : Vec Ideal S128x64 .f32) (j : S10000x64.Idx) :
    k3_pay1 x0 x1 j
      = ∑ k : Fin 128, x0 (ix2 (⟨(j 0).val, (j 0).isLt⟩ : Fin 10000) k) * x1 (ix2 k (⟨(j 1).val, (j 1).isLt⟩ : Fin 64)) := by
  unfold k3_pay1
  rw [shapeCast_self]
  refine (Ideal.matmul_constant_zero_apply dot_S10000x128_S128x64_S10000x64_1_0_0_1_n_n none _ _ j).trans ?_
  rw [← Equiv.sum_comp (contrEquiv1 dot_S10000x128_S128x64_S10000x64_1_0_0_1_n_n 128 rfl rfl).symm]
  refine Finset.sum_congr rfl fun k _ => ?_
  rw [lhs_idx, rhs_idx]
  rfl

/-- The printed index maps over the ten grid points: the row blocks move with the point, the weight matrix stays. -/
theorem idx_facts : ∀ t : Fin cfg3.N, win3_0.index t (0 : Fin 2) = t.val
    ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Block `t` of the payload over the blocks of `A` and `B` is block `t` of the matrix product. -/
theorem block_eq (A : S100000x128.Idx → EReal) (B : S128x64.Idx → EReal) (t : Fin cfg3.N) (j : S10000x64.Idx) :
    k3_pay1 (F := Ideal) (fun y => A (((cfg3.win 0).blk t).view.emb y)) (fun y => B (((cfg3.win 1).blk t).view.emb y)) j
      = Spec.mm64 A B (((cfg3.win 2).blk t).view.emb j) := by
  obtain ⟨e0, e1, e2, e3, e4, e5⟩ := idx_facts t
  refine (pay_apply _ _ j).trans ?_
  unfold Spec.mm64
  refine Finset.sum_congr rfl fun k _ => ?_
  have h0 : ((cfg3.win 0).blk t).view.emb (ix2 (⟨(j 0).val, (j 0).isLt⟩ : Fin 10000) k)
      = ix2 (⟨((((cfg3.win 2).blk t).view.emb j) 0).val, ((((cfg3.win 2).blk t).view.emb j) 0).isLt⟩ : Fin 100000) k := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * k.val = k.val; omega
  have h1 : ((cfg3.win 1).blk t).view.emb (ix2 k (⟨(j 1).val, (j 1).isLt⟩ : Fin 64))
      = ix2 k (⟨((((cfg3.win 2).blk t).view.emb j) 1).val, ((((cfg3.win 2).blk t).view.emb j) 1).isLt⟩ : Fin 64) := by
    funext a; apply Fin.ext
    match a with
    | ⟨0, _⟩ => show win3_1.index t (0 : Fin 2) * 128 + 1 * k.val = k.val; omega
    | ⟨1, _⟩ => show win3_1.index t (1 : Fin 2) * 64 + 1 * (j 1).val = win3_2.index t (1 : Fin 2) * 64 + 1 * (j 1).val; omega
  show A (((cfg3.win 0).blk t).view.emb (ix2 (⟨(j 0).val, (j 0).isLt⟩ : Fin 10000) k))
      * B (((cfg3.win 1).blk t).view.emb (ix2 k (⟨(j 1).val, (j 1).isLt⟩ : Fin 64))) = _
  rw [h0, h1]

/-- What point `t` writes back is block `t` of the matrix product. -/
theorem flushed_eq (c : Dev nD) (t : Fin cfg3.N) :
    (dat3 V c).flushed 2 t = ((cfg3.win 2).blk t).view.read (Elt Ideal) (Spec.mm64 (V c main_v45) (V c main_arg5)) := by
  show (cfg3.win 2).cut (grid3.coords t) ((dat3 V c).after 2 t) = _
  rw [after3_2]
  unfold out3_2
  rw [View.canon_unit_zero hz]
  simp only [View.ld_unit_zero (S := S10000x128) hz, View.ld_unit_zero (S := S128x64) hz]
  funext j
  exact block_eq (V c main_v45) (V c main_arg5) t j

/-- An index of the array is in point `t`'s block iff each coordinate is in the block's range on its axis. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v46).slice (win3_2.rect t)).set ↔ _
  rw [View.set_slice_whole, Rect.mem_set_unit]
  exact Iff.rfl

/-- Row `r` lies in the block of point `r / 10000`: the ten blocks cover the array. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 10 := N_3
  let t : Fin cfg3.N := ⟨(i 0).val / 10000, by show (i 0).val / 10000 < grid3.N; omega⟩
  obtain ⟨-, -, -, -, e4, e5⟩ := idx_facts t
  have e4' : win3_2.index t (0 : Fin 2) = (i 0).val / 10000 := e4
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The array region 3 leaves: the array it found times the weight matrix it found. -/
theorem value (c : Dev nD) : (dat3 V c).arrAt 2 cfg3.N = Spec.mm64 (V c main_v45) (V c main_arg5) :=
  (dat3 V c).arrAt_eq_of_cover 2 (Spec.mm64 (V c main_v45) (V c main_arg5)) (fun t _ => flushed_eq V c t) cover

end Cert.KernelIdeal.Region3

end
-- ==== Proof.Region4RowBias.lean ====
/-
  The fifth pallas_call (pipeline 4) adds a bias row to every row of a 100000×64 array, 10000 rows per grid point:
  out[r, j] = a[r, j] + b[0, j].  Here: the array the region leaves is that function of the two arrays it found,
  index by index, at the ideal instance (sums on the extended reals).
-/
import proofs.«153344_j5583457485491_1_alg».proof.Proof.Gen.KernelIdeal.Frame
import proofs.«153344_j5583457485491_1_alg».proof.Proof.SpecBias
import Idealize.ShloMosaic.Lib.Pipeline.Value
import Idealize.ShloMosaic.Lib.ValueIdx
import Idealize.ShloMosaic.Lib.ValueLayout

set_option maxRecDepth 16384

noncomputable section

namespace Cert.KernelIdeal.Region4

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- One block's payload at an entry: the block's entry plus the bias row's entry under the same column. -/
theorem pay_apply (x0 : Vec Ideal S10000x64 .f32) (x1 : Vec Ideal S1x64 .f32) (j : S10000x64.Idx) (k : S1x64.Idx)
    (hk0 : (k 0).val = 0) (hk1 : (k 1).val = (j 1).val) :
    k4_pay1 x0 x1 j = x0 j + x1 k := by
  unfold k4_pay1
  rw [shapeCast_self, shapeCast_self]
  show x0 j + broadcastTo S10000x64 x1 broadcasts_S1x64_S10000x64 j = _
  rw [broadcastTo_apply x1 broadcasts_S1x64_S10000x64 j k (fun a => by
    match a with
    | ⟨0, _⟩ => exact hk0
    | ⟨1, _⟩ => exact hk1)]

/-- The printed index maps over the ten grid points: the row blocks move with the point, the bias row stays. -/
theorem idx_facts : ∀ t : Fin cfg4.N, win4_0.index t (0 : Fin 2) = win4_2.index t (0 : Fin 2)
    ∧ win4_0.index t (1 : Fin 2) = 0 ∧ win4_2.index t (1 : Fin 2) = 0
    ∧ win4_1.index t (0 : Fin 2) = 0 ∧ win4_1.index t (1 : Fin 2) = 0
    ∧ win4_2.index t (0 : Fin 2) = t.val :=
  (by decide +kernel : ∀ t : Fin grid4.N, _)

/-- Block `t` of the payload over the blocks of `A` and `B` is block `t` of the row-biased array. -/
theorem block_eq (A : S100000x64.Idx → EReal) (B : S1x64.Idx → EReal) (t : Fin cfg4.N) (j : S10000x64.Idx) :
    k4_pay1 (F := Ideal) (fun y => A (((cfg4.win 0).blk t).view.emb y)) (fun y => B (((cfg4.win 1).blk t).view.emb y)) j
      = Spec.biasAdd A B (((cfg4.win 2).blk t).view.emb j) := by
  obtain ⟨e0, e1, e2, e3, e4, e5⟩ := idx_facts t
  let k : S1x64.Idx := fun a => match a with
    | ⟨0, _⟩ => ⟨0, Nat.one_pos⟩
    | ⟨1, _⟩ => ⟨(j 1).val, (j 1).isLt⟩
  refine (pay_apply _ _ j k rfl rfl).trans ?_
  unfold Spec.biasAdd
  have h0 : ((cfg4.win 0).blk t).view.emb j = ((cfg4.win 2).blk t).view.emb j := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb k = Spec.under (((cfg4.win 2).blk t).view.emb j) := by
    funext a; apply Fin.ext
    match a with
    | ⟨0, _⟩ => show win4_1.index t (0 : Fin 2) * 1 + 1 * 0 = 0; omega
    | ⟨1, _⟩ => show win4_1.index t (1 : Fin 2) * 64 + 1 * (j 1).val = win4_2.index t (1 : Fin 2) * 64 + 1 * (j 1).val; omega
  show A (((cfg4.win 0).blk t).view.emb j) + B (((cfg4.win 1).blk t).view.emb k) = _
  rw [h0, h1]

/-- What point `t` writes back is block `t` of the row-biased array. -/
theorem flushed_eq (c : Dev nD) (t : Fin cfg4.N) :
    (dat4 V c).flushed 2 t = ((cfg4.win 2).blk t).view.read (Elt Ideal) (Spec.biasAdd (V c main_v59) (V c main_v60)) := by
  show (cfg4.win 2).cut (grid4.coords t) ((dat4 V c).after 2 t) = _
  rw [after4_2]
  unfold out4_2
  rw [View.canon_unit_zero hz]
  simp only [View.ld_unit_zero (S := S10000x64) hz, View.ld_unit_zero (S := S1x64) hz]
  funext j
  exact block_eq (V c main_v59) (V c main_v60) t j

/-- An index of the array is in point `t`'s block iff each coordinate is in the block's range on its axis. -/
theorem mem_blk (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v61).slice (win4_2.rect t)).set ↔ _
  rw [View.set_slice_whole, Rect.mem_set_unit]
  exact Iff.rfl

/-- Row `r` lies in the block of point `r / 10000`: the ten blocks cover the array. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : grid4.N = 10 := N_4
  let t : Fin cfg4.N := ⟨(i 0).val / 10000, by show (i 0).val / 10000 < grid4.N; omega⟩
  obtain ⟨-, -, e2, -, -, e5⟩ := idx_facts t
  have e5' : win4_2.index t (0 : Fin 2) = (i 0).val / 10000 := e5
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- The array region 4 leaves: every row of the array it found plus the bias row it found. -/
theorem value (c : Dev nD) : (dat4 V c).arrAt 2 cfg4.N = Spec.biasAdd (V c main_v59) (V c main_v60) :=
  (dat4 V c).arrAt_eq_of_cover 2 (Spec.biasAdd (V c main_v59) (V c main_v60)) (fun t _ => flushed_eq V c t) cover

end Cert.KernelIdeal.Region4

end
-- ==== Proof.Region5Matmul.lean ====
/-
  The sixth pallas_call (pipeline 5) is a dense layer: a 100000×128 array times a 128×64 weight matrix, 10000 rows per
  grid point: out[r, j] = ∑ k, h[r, k] · w[k, j].  Here: the array the region leaves is that function of the two arrays it
  found, index by index, at the ideal instance (sums and products on the extended reals, the bf16 casts the identity).
-/
import proofs.«153344_j5583457485491_1_alg».proof.Proof.Gen.KernelIdeal.Frame
import proofs.«153344_j5583457485491_1_alg».proof.Proof.SpecMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region5

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The product's left operand index at output index `j` and contraction position `k` is `(j 0, k)`. -/
theorem lhs_idx (j : S10000x64.Idx) (k : Fin 128) :
    dot_S10000x128_S128x64_S10000x64_1_0_0_1_n_n.lhsIdx j ((contrEquiv1 dot_S10000x128_S128x64_S10000x64_1_0_0_1_n_n 128 rfl rfl).symm k)
      = ix2 (⟨(j 0).val, (j 0).isLt⟩ : Fin 10000) k := by
  have hk := contrEquiv1_symm_val dot_S10000x128_S128x64_S10000x64_1_0_0_1_n_n 128 rfl rfl k
  funext a; apply Fin.ext
  match a with
  | ⟨0, _⟩ =>
    show (dot_S10000x128_S128x64_S10000x64_1_0_0_1_n_n.lhsIdx j _ 0).val = (j 0).val
    unfold DotDims.lhsIdx
    rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
    rfl
  | ⟨1, _⟩ => exact (dot_S10000x128_S128x64_S10000x64_1_0_0_1_n_n.lhsIdx_val_of_single rfl j _).trans hk

/-- The product's right operand index at output index `j` and contraction position `k` is `(k, j 1)`. -/
theorem rhs_idx (j : S10000x64.Idx) (k : Fin 128) :
    dot_S10000x128_S128x64_S10000x64_1_0_0_1_n_n.rhsIdx j ((contrEquiv1 dot_S10000x128_S128x64_S10000x64_1_0_0_1_n_n 128 rfl rfl).symm k)
      = ix2 k (⟨(j 1).val, (j 1).isLt⟩ : Fin 64) := by
  have hk := contrEquiv1_symm_val dot_S10000x128_S128x64_S10000x64_1_0_0_1_n_n 128 rfl rfl k
  funext a; apply Fin.ext
  match a with
  | ⟨0, _⟩ => exact (dot_S10000x128_S128x64_S10000x64_1_0_0_1_n_n.rhsIdx_val_of_single rfl j _).trans hk
  | ⟨1, _⟩ =>
    show (dot_S10000x128_S128x64_S10000x64_1_0_0_1_n_n.rhsIdx j _ 1).val = (j 1).val
    unfold DotDims.rhsIdx
    rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
    rfl

/-- One block's payload at an entry: the narrowing casts are the identity on extended reals and the product into a zero
    accumulator is the plain sum, so entry `(r, j)` is `∑ k, x0[r, k] · x1[k, j]`. -/
theorem pay_apply (x0 : Vec Ideal S10000x128 .f32) (x1 : Vec Ideal S128x64 .f32) (j : S10000x64.Idx) :
    k5_pay1 x0 x1 j
      = ∑ k : Fin 128, x0 (ix2 (⟨(j 0).val, (j 0).isLt⟩ : Fin 10000) k) * x1 (ix2 k (⟨(j 1).val, (j 1).isLt⟩ : Fin 64)) := by
  unfold k5_pay1
  rw [shapeCast_self]
  refine (Ideal.matmul_constant_zero_apply dot_S10000x128_S128x64_S10000x64_1_0_0_1_n_n none _ _ j).trans ?_
  rw [← Equiv.sum_comp (contrEquiv1 dot_S10000x128_S128x64_S10000x64_1_0_0_1_n_n 128 rfl rfl).symm]
  refine Finset.sum_congr rfl fun k _ => ?_
  rw [lhs_idx, rhs_idx]
  rfl

/-- The printed index maps over the ten grid points: the row blocks move with the point, the weight matrix stays. -/
theorem idx_facts : ∀ t : Fin cfg5.N, win5_0.index t (0 : Fin 2) = t.val
    ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Block `t` of the payload over the blocks of `A` and `B` is block `t` of the matrix product. -/
theorem block_eq (A : S100000x128.Idx → EReal) (B : S128x64.Idx → EReal) (t : Fin cfg5.N) (j : S10000x64.Idx) :
    k5_pay1 (F := Ideal) (fun y => A (((cfg5.win 0).blk t).view.emb y)) (fun y => B (((cfg5.win 1).blk t).view.emb y)) j
      = Spec.mm64 A B (((cfg5.win 2).blk t).view.emb j) := by
  obtain ⟨e0, e1, e2, e3, e4, e5⟩ := idx_facts t
  refine (pay_apply _ _ j).trans ?_
  unfold Spec.mm64
  refine Finset.sum_congr rfl fun k _ => ?_
  have h0 : ((cfg5.win 0).blk t).view.emb (ix2 (⟨(j 0).val, (j 0).isLt⟩ : Fin 10000) k)
      = ix2 (⟨((((cfg5.win 2).blk t).view.emb j) 0).val, ((((cfg5.win 2).blk t).view.emb j) 0).isLt⟩ : Fin 100000) k := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 128 + 1 * k.val = k.val; omega
  have h1 : ((cfg5.win 1).blk t).view.emb (ix2 k (⟨(j 1).val, (j 1).isLt⟩ : Fin 64))
      = ix2 k (⟨((((cfg5.win 2).blk t).view.emb j) 1).val, ((((cfg5.win 2).blk t).view.emb j) 1).isLt⟩ : Fin 64) := by
    funext a; apply Fin.ext
    match a with
    | ⟨0, _⟩ => show win5_1.index t (0 : Fin 2) * 128 + 1 * k.val = k.val; omega
    | ⟨1, _⟩ => show win5_1.index t (1 : Fin 2) * 64 + 1 * (j 1).val = win5_2.index t (1 : Fin 2) * 64 + 1 * (j 1).val; omega
  show A (((cfg5.win 0).blk t).view.emb (ix2 (⟨(j 0).val, (j 0).isLt⟩ : Fin 10000) k))
      * B (((cfg5.win 1).blk t).view.emb (ix2 k (⟨(j 1).val, (j 1).isLt⟩ : Fin 64))) = _
  rw [h0, h1]

/-- What point `t` writes back is block `t` of the matrix product. -/
theorem flushed_eq (c : Dev nD) (t : Fin cfg5.N) :
    (dat5 V c).flushed 2 t = ((cfg5.win 2).blk t).view.read (Elt Ideal) (Spec.mm64 (V c main_v45) (V c main_arg7)) := by
  show (cfg5.win 2).cut (grid5.coords t) ((dat5 V c).after 2 t) = _
  rw [after5_2]
  unfold out5_2
  rw [View.canon_unit_zero hz]
  simp only [View.ld_unit_zero (S := S10000x128) hz, View.ld_unit_zero (S := S128x64) hz]
  funext j
  exact block_eq (V c main_v45) (V c main_arg7) t j

/-- An index of the array is in point `t`'s block iff each coordinate is in the block's range on its axis. -/
theorem mem_blk (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v62).slice (win5_2.rect t)).set ↔ _
  rw [View.set_slice_whole, Rect.mem_set_unit]
  exact Iff.rfl

/-- Row `r` lies in the block of point `r / 10000`: the ten blocks cover the array. -/
theorem cover (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  have hN : grid5.N = 10 := N_5
  let t : Fin cfg5.N := ⟨(i 0).val / 10000, by show (i 0).val / 10000 < grid5.N; omega⟩
  obtain ⟨-, -, -, -, e4, e5⟩ := idx_facts t
  have e4' : win5_2.index t (0 : Fin 2) = (i 0).val / 10000 := e4
  refine ⟨t, flush5_2 t, ?_⟩
  rw [mem_blk]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- The array region 5 leaves: the array it found times the weight matrix it found. -/
theorem value (c : Dev nD) : (dat5 V c).arrAt 2 cfg5.N = Spec.mm64 (V c main_v45) (V c main_arg7) :=
  (dat5 V c).arrAt_eq_of_cover 2 (Spec.mm64 (V c main_v45) (V c main_arg7)) (fun t _ => flushed_eq V c t) cover

end Cert.KernelIdeal.Region5

end
-- ==== Proof.Region6BiasSoftplus.lean ====
/-
  The seventh pallas_call (pipeline 6) adds a bias row to every row of a 100000×64 array and takes the softplus
  log (1 + eˣ) of each entry in its overflow-safe form max x 0 + log1p (exp (0 - |x - 0|)), 10000 rows per grid point.
  Here: the array the region leaves is that function of the two arrays it found, index by index, at the ideal
  instance.  The kernel guards the form by the comparison "x - 0 differs from itself", which no extended real
  satisfies, so the guarded form is the value everywhere.
-/
import proofs.«153344_j5583457485491_1_alg».proof.Proof.Gen.KernelIdeal.Frame
import proofs.«153344_j5583457485491_1_alg».proof.Proof.SpecBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region6

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- A value of the linear order is not different from itself: the kernel's guard `d ≠ d` is the bit `0`. -/
theorem cmp_one_self (x : EReal) : FloatOps.cmpf (F := Ideal) (φ := .f32) .one x x = 0#1 := by
  show BitVec.ofBool (decide (x ≠ x)) = 0#1
  rw [decide_eq_false (fun h => h rfl)]
  rfl

/-- The kernel's form of the softplus, with `0 - |d|` where the specification has `-|d|`. -/
theorem softplus_form (v : EReal) :
    max v Spec.zero + FloatOps.log1p (F := Ideal) (φ := .f32) (FloatOps.exp (F := Ideal) (φ := .f32)
        (Spec.zero - max (v - Spec.zero) (-(v - Spec.zero)))) = Spec.softplus v := by
  unfold Spec.softplus
  have h : Spec.zero - max (v - Spec.zero) (-(v - Spec.zero)) = -(max (v - Spec.zero) (-(v - Spec.zero))) := by
    show Ideal.ofBits .f32 0x00000000#32 - _ = _
    rw [Ideal.ofBits_zero_f32, zero_sub]
  rw [h]

/-- One block's payload at an entry: the softplus of the block's entry plus the bias row's entry under the same column. -/
theorem pay_apply (x0 : Vec Ideal S10000x64 .f32) (x1 : Vec Ideal S1x64 .f32) (j : S10000x64.Idx) (k : S1x64.Idx)
    (hk0 : (k 0).val = 0) (hk1 : (k 1).val = (j 1).val) :
    k6_pay1 x0 x1 j = Spec.softplus (x0 j + x1 k) := by
  unfold k6_pay1
  rw [shapeCast_self, shapeCast_self, select_apply, cmpf_apply, cmp_one_self, select_zero]
  refine Eq.trans ?_ (softplus_form (x0 j + x1 k))
  rw [← broadcastTo_apply x1 broadcasts_S1x64_S10000x64 j k (fun a => by
    match a with
    | ⟨0, _⟩ => exact hk0
    | ⟨1, _⟩ => exact hk1)]
  rfl

/-- The printed index maps over the ten grid points: the row blocks move with the point, the bias row stays. -/
theorem idx_facts : ∀ t : Fin cfg6.N, win6_0.index t (0 : Fin 2) = win6_2.index t (0 : Fin 2)
    ∧ win6_0.index t (1 : Fin 2) = 0 ∧ win6_2.index t (1 : Fin 2) = 0
    ∧ win6_1.index t (0 : Fin 2) = 0 ∧ win6_1.index t (1 : Fin 2) = 0
    ∧ win6_2.index t (0 : Fin 2) = t.val :=
  (by decide +kernel : ∀ t : Fin grid6.N, _)

/-- Block `t` of the payload over the blocks of `A` and `B` is block `t` of the softplus of the row-biased array. -/
theorem block_eq (A : S100000x64.Idx → EReal) (B : S1x64.Idx → EReal) (t : Fin cfg6.N) (j : S10000x64.Idx) :
    k6_pay1 (F := Ideal) (fun y => A (((cfg6.win 0).blk t).view.emb y)) (fun y => B (((cfg6.win 1).blk t).view.emb y)) j
      = Spec.biasSoftplus A B (((cfg6.win 2).blk t).view.emb j) := by
  obtain ⟨e0, e1, e2, e3, e4, e5⟩ := idx_facts t
  let k : S1x64.Idx := fun a => match a with
    | ⟨0, _⟩ => ⟨0, Nat.one_pos⟩
    | ⟨1, _⟩ => ⟨(j 1).val, (j 1).isLt⟩
  refine (pay_apply _ _ j k rfl rfl).trans ?_
  unfold Spec.biasSoftplus
  have h0 : ((cfg6.win 0).blk t).view.emb j = ((cfg6.win 2).blk t).view.emb j := by
    funext a; apply Fin.ext
    match a with
    | ⟨0, _⟩ => show win6_0.index t (0 : Fin 2) * 10000 + 1 * (j 0).val = win6_2.index t (0 : Fin 2) * 10000 + 1 * (j 0).val; omega
    | ⟨1, _⟩ => show win6_0.index t (1 : Fin 2) * 64 + 1 * (j 1).val = win6_2.index t (1 : Fin 2) * 64 + 1 * (j 1).val; omega
  have h1 : ((cfg6.win 1).blk t).view.emb k = Spec.under (((cfg6.win 2).blk t).view.emb j) := by
    funext a; apply Fin.ext
    match a with
    | ⟨0, _⟩ => show win6_1.index t (0 : Fin 2) * 1 + 1 * 0 = 0; omega
    | ⟨1, _⟩ => show win6_1.index t (1 : Fin 2) * 64 + 1 * (j 1).val = win6_2.index t (1 : Fin 2) * 64 + 1 * (j 1).val; omega
  show Spec.softplus (A (((cfg6.win 0).blk t).view.emb j) + B (((cfg6.win 1).blk t).view.emb k)) = _
  rw [h0, h1]

/-- What point `t` writes back is block `t` of the softplus of the row-biased array. -/
theorem flushed_eq (c : Dev nD) (t : Fin cfg6.N) :
    (dat6 V c).flushed 2 t = ((cfg6.win 2).blk t).view.read (Elt Ideal) (Spec.biasSoftplus (V c main_v75) (V c main_v76)) := by
  show (cfg6.win 2).cut (grid6.coords t) ((dat6 V c).after 2 t) = _
  rw [after6_2]
  unfold out6_2
  rw [View.canon_unit_zero hz]
  simp only [View.ld_unit_zero (S := S10000x64) hz, View.ld_unit_zero (S := S1x64) hz]
  funext j
  exact block_eq (V c main_v75) (V c main_v76) t j

/-- An index of the array is in point `t`'s block iff each coordinate is in the block's range on its axis. -/
theorem mem_blk (t : Fin cfg6.N) (i : S100000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v77).slice (win6_2.rect t)).set ↔ _
  rw [View.set_slice_whole, Rect.mem_set_unit]
  exact Iff.rfl

/-- Row `r` lies in the block of point `r / 10000`: the ten blocks cover the array. -/
theorem cover (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  have hN : grid6.N = 10 := N_6
  let t : Fin cfg6.N := ⟨(i 0).val / 10000, by show (i 0).val / 10000 < grid6.N; omega⟩
  obtain ⟨-, -, e2, -, -, e5⟩ := idx_facts t
  have e5' : win6_2.index t (0 : Fin 2) = (i 0).val / 10000 := e5
  refine ⟨t, flush6_2 t, ?_⟩
  rw [mem_blk]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 64 ≤ (i 1).val ∧ (i 1).val < win6_2.index t (1 : Fin 2) * 64 + 64; omega

/-- The array region 6 leaves: the softplus of every row of the array it found plus the bias row it found. -/
theorem value (c : Dev nD) : (dat6 V c).arrAt 2 cfg6.N = Spec.biasSoftplus (V c main_v75) (V c main_v76) :=
  (dat6 V c).arrAt_eq_of_cover 2 (Spec.biasSoftplus (V c main_v75) (V c main_v76)) (fun t _ => flushed_eq V c t) cover

end Cert.KernelIdeal.Region6

end
-- ==== Proof.RefAbsConcat.lean ====
/-
  The reference joins the 127 feature columns and the one label column side by side and takes the absolute value
  of every entry.  Here: that array is the specification's |[x | y]|, index by index.  A column below 127 of the
  joined array is the same column of the features; column 127 is the labels' only column; and the host's absolute
  value of v on the extended reals is max v (-v), the form the specification writes.
-/
import proofs.«153344_j5583457485491_1_alg».proof.Proof.Gen.ReferenceIdeal.Read
import proofs.«153344_j5583457485491_1_alg».proof.Proof.SpecAbsCat

set_option maxRecDepth 16384

noncomputable section

namespace Cert.ReferenceIdeal.Features

open Cert.ReferenceIdeal Cert.ReferenceIdeal.Gen Cert.ReferenceIdeal.Read Idealize.ShloMosaic
open Idealize.ShloMosaic.ValueIdx

/-- The joined array at a column below 127 reads the features at the same row and column. -/
theorem cat_left (x0 : S100000x127.Idx → EReal) (x1 : S100000x1.Idx → EReal) (i : S100000x128.Idx)
    (h : (i 1).val < 127) :
    concatenate S100000x128 1 [⟨S100000x127, x0⟩, ⟨S100000x1, x1⟩] concatenates_S100000x127_S100000x1_S100000x128_d1 i
      = x0 (ix2 (⟨(i 0).val, (i 0).isLt⟩ : Fin 100000) (⟨(i 1).val, h⟩ : Fin 127)) :=
  concatenate_pair_apply_left (1 : Fin 2) x0 x1 concatenates_S100000x127_S100000x1_S100000x128_d1 i rfl _ (fun b => by
    match b with
    | ⟨0, _⟩ => rfl
    | ⟨1, _⟩ => rfl)

/-- The joined array at column 127 reads the labels at the same row, column 0. -/
theorem cat_right (x0 : S100000x127.Idx → EReal) (x1 : S100000x1.Idx → EReal) (i : S100000x128.Idx)
    (h : ¬ (i 1).val < 127) :
    concatenate S100000x128 1 [⟨S100000x127, x0⟩, ⟨S100000x1, x1⟩] concatenates_S100000x127_S100000x1_S100000x128_d1 i
      = x1 (ix2 (⟨(i 0).val, (i 0).isLt⟩ : Fin 100000) (⟨0, Nat.one_pos⟩ : Fin 1)) :=
  concatenate_pair_apply_right (1 : Fin 2) x0 x1 concatenates_S100000x127_S100000x1_S100000x128_d1 i rfl rfl _
    (fun b hb => by
      match b with
      | ⟨0, _⟩ => rfl
      | ⟨1, _⟩ => exact absurd rfl hb)
    (by
      have h1 : (i 1).val < 128 := (i 1).isLt
      show 0 + 127 = (i 1).val
      omega)

/-- The reference's absolute value of the joined array is the specification's absolute value of the two arrays
    side by side. -/
theorem v8_eq (x0 : (⟨S100000x127, .f32⟩ : BufTy).Contents (Elt Ideal)) (x1 : (⟨S100000x1, .f32⟩ : BufTy).Contents (Elt Ideal)) :
    val_main_v8 (F := Ideal) x0 x1 = Spec.absCat x0 x1 := by
  funext i
  rw [val_main_v8_apply]
  unfold val_main_v7 Spec.absCat
  by_cases h : (i 1).val < 127
  · rw [dif_pos h]
    exact congrArg (fun v : EReal => max v (-v)) (cat_left x0 x1 i h)
  · rw [dif_neg h]
    exact congrArg (fun v : EReal => max v (-v)) (cat_right x0 x1 i h)

end Cert.ReferenceIdeal.Features

end
-- ==== Proof.RefMatmul.lean ====
/-
  The reference's three dense layers: each `dot_general` contracts the 128 columns of its left operand with the 128 rows
  of the weight matrix, so its entry `(r, j)` is `∑ k, h[r, k] · w[k, j]`, the specification's matrix product.
-/
import proofs.«153344_j5583457485491_1_alg».proof.Proof.Gen.ReferenceIdeal.Read
import proofs.«153344_j5583457485491_1_alg».proof.Proof.SpecMatmul
import Idealize.ShloMosaic.Lib.ValueIdx

set_option maxRecDepth 16384

noncomputable section

namespace Cert.ReferenceIdeal.Dense

open Cert.ReferenceIdeal Cert.ReferenceIdeal.Read Idealize.ShloMosaic
open Idealize.ShloMosaic.ValueIdx

/-- The first dense layer: the absolute values times the 128×128 weight matrix. -/
theorem v9_eq (x0 : (⟨S100000x127, .f32⟩ : BufTy).Contents (Elt Ideal)) (x1 : (⟨S100000x1, .f32⟩ : BufTy).Contents (Elt Ideal))
    (x3 : (⟨S128x128, .f32⟩ : BufTy).Contents (Elt Ideal)) :
    val_main_v9 (F := Ideal) x0 x1 x3 = Spec.mm128 (val_main_v8 (F := Ideal) x0 x1) x3 := by
  funext i
  rw [val_main_v9_apply]
  generalize val_main_v8 (F := Ideal) x0 x1 = y
  unfold Spec.mm128
  refine Finset.sum_congr rfl fun k _ => ?_
  have el : lidx_main_v9 i k = ix2 (⟨(i 0).val, (i 0).isLt⟩ : Fin 100000) k :=
    funext fun a => Fin.ext (by match a with | ⟨0, _⟩ => rfl | ⟨1, _⟩ => rfl)
  have er : ridx_main_v9 i k = ix2 k (⟨(i 1).val, (i 1).isLt⟩ : Fin 128) :=
    funext fun a => Fin.ext (by match a with | ⟨0, _⟩ => rfl | ⟨1, _⟩ => rfl)
  rw [el, er]

/-- The second dense layer (first branch): the hidden activations times a 128×64 weight matrix. -/
theorem v49_eq (x0 : (⟨S100000x127, .f32⟩ : BufTy).Contents (Elt Ideal)) (x1 : (⟨S100000x1, .f32⟩ : BufTy).Contents (Elt Ideal))
    (x2 : (⟨S2x800000, .i32⟩ : BufTy).Contents (Elt Ideal)) (x3 : (⟨S128x128, .f32⟩ : BufTy).Contents (Elt Ideal))
    (x4 : (⟨S128, .f32⟩ : BufTy).Contents (Elt Ideal)) (x5 : (⟨S128x64, .f32⟩ : BufTy).Contents (Elt Ideal)) :
    val_main_v49 (F := Ideal) x0 x1 x2 x3 x4 x5 = Spec.mm64 (val_main_v48 (F := Ideal) x0 x1 x2 x3 x4) x5 := by
  funext i
  rw [val_main_v49_apply]
  generalize val_main_v48 (F := Ideal) x0 x1 x2 x3 x4 = y
  unfold Spec.mm64
  refine Finset.sum_congr rfl fun k _ => ?_
  have el : lidx_main_v49 i k = ix2 (⟨(i 0).val, (i 0).isLt⟩ : Fin 100000) k :=
    funext fun a => Fin.ext (by match a with | ⟨0, _⟩ => rfl | ⟨1, _⟩ => rfl)
  have er : ridx_main_v49 i k = ix2 k (⟨(i 1).val, (i 1).isLt⟩ : Fin 64) :=
    funext fun a => Fin.ext (by match a with | ⟨0, _⟩ => rfl | ⟨1, _⟩ => rfl)
  rw [el, er]

/-- The second dense layer (second branch): the same hidden activations times the other 128×64 weight matrix. -/
theorem v88_eq (x0 : (⟨S100000x127, .f32⟩ : BufTy).Contents (Elt Ideal)) (x1 : (⟨S100000x1, .f32⟩ : BufTy).Contents (Elt Ideal))
    (x2 : (⟨S2x800000, .i32⟩ : BufTy).Contents (Elt Ideal)) (x3 : (⟨S128x128, .f32⟩ : BufTy).Contents (Elt Ideal))
    (x4 : (⟨S128, .f32⟩ : BufTy).Contents (Elt Ideal)) (x7 : (⟨S128x64, .f32⟩ : BufTy).Contents (Elt Ideal)) :
    val_main_v88 (F := Ideal) x0 x1 x2 x3 x4 x7 = Spec.mm64 (val_main_v48 (F := Ideal) x0 x1 x2 x3 x4) x7 := by
  funext i
  rw [val_main_v88_apply]
  generalize val_main_v48 (F := Ideal) x0 x1 x2 x3 x4 = y
  unfold Spec.mm64
  refine Finset.sum_congr rfl fun k _ => ?_
  have el : lidx_main_v88 i k = ix2 (⟨(i 0).val, (i 0).isLt⟩ : Fin 100000) k :=
    funext fun a => Fin.ext (by match a with | ⟨0, _⟩ => rfl | ⟨1, _⟩ => rfl)
  have er : ridx_main_v88 i k = ix2 k (⟨(i 1).val, (i 1).isLt⟩ : Fin 64) :=
    funext fun a => Fin.ext (by match a with | ⟨0, _⟩ => rfl | ⟨1, _⟩ => rfl)
  rw [el, er]

end Cert.ReferenceIdeal.Dense

end
-- ==== Proof.RefEpilogues.lean ====
/-
  The reference's three epilogues: a bias row added to every row of a matrix, then nothing, the rectifier
  `max · 0`, or the softplus.  Each is read index by index and met with the specification's function of the
  matrix and the bias row.
-/
import proofs.«153344_j5583457485491_1_alg».proof.Proof.Gen.ReferenceIdeal.Read
import proofs.«153344_j5583457485491_1_alg».proof.Proof.SpecBias

noncomputable section

namespace Cert.ReferenceIdeal.Epilogue

open Cert.ReferenceIdeal Cert.ReferenceIdeal.Read Idealize.ShloMosaic

/-- The second epilogue: the matrix plus the bias row under each column. -/
theorem v87_eq (x0 : (⟨S100000x127, .f32⟩ : BufTy).Contents (Elt Ideal)) (x1 : (⟨S100000x1, .f32⟩ : BufTy).Contents (Elt Ideal))
    (x2 : (⟨S2x800000, .i32⟩ : BufTy).Contents (Elt Ideal)) (x3 : (⟨S128x128, .f32⟩ : BufTy).Contents (Elt Ideal))
    (x4 : (⟨S128, .f32⟩ : BufTy).Contents (Elt Ideal)) (x5 : (⟨S128x64, .f32⟩ : BufTy).Contents (Elt Ideal))
    (x6 : (⟨S64, .f32⟩ : BufTy).Contents (Elt Ideal)) :
    val_main_v87 (F := Ideal) x0 x1 x2 x3 x4 x5 x6
      = Spec.biasAdd (val_main_v84 (F := Ideal) x0 x1 x2 x3 x4 x5) (val_main_v85 (F := Ideal) x6) := by
  funext i
  rw [val_main_v87_apply, val_main_v86_apply]
  generalize val_main_v84 (F := Ideal) x0 x1 x2 x3 x4 x5 = a
  have hi : idx_main_v86 i = Spec.under i := funext fun a => Fin.ext (by
    match a with
    | ⟨0, _⟩ => rfl
    | ⟨1, _⟩ => rfl)
  rw [hi]
  rfl

/-- The first epilogue: the matrix plus the bias row under each column, then the maximum with zero. -/
theorem v48_eq (x0 : (⟨S100000x127, .f32⟩ : BufTy).Contents (Elt Ideal)) (x1 : (⟨S100000x1, .f32⟩ : BufTy).Contents (Elt Ideal))
    (x2 : (⟨S2x800000, .i32⟩ : BufTy).Contents (Elt Ideal)) (x3 : (⟨S128x128, .f32⟩ : BufTy).Contents (Elt Ideal))
    (x4 : (⟨S128, .f32⟩ : BufTy).Contents (Elt Ideal)) :
    val_main_v48 (F := Ideal) x0 x1 x2 x3 x4
      = Spec.biasRelu (val_main_v44 (F := Ideal) x0 x1 x2 x3) (val_main_v45 (F := Ideal) x4) := by
  funext i
  rw [val_main_v48_apply, val_main_v47_apply, val_main_v46_apply, val_main_call0_v0_apply, val_main_call0_cst_apply]
  generalize val_main_v44 (F := Ideal) x0 x1 x2 x3 = a
  have hi : idx_main_v46 i = Spec.under i := funext fun a => Fin.ext (by
    match a with
    | ⟨0, _⟩ => rfl
    | ⟨1, _⟩ => rfl)
  rw [hi]
  rfl

/-- A value of the linear order is not different from itself: the reference's guard `d ≠ d` is the bit `0`. -/
theorem cmp_une_self (x : EReal) : FloatOps.cmpf (F := Ideal) (φ := .f32) .une x x = 0#1 := by
  show BitVec.ofBool (decide (x ≠ x)) = 0#1
  rw [decide_eq_false (fun h => h rfl)]
  rfl

/-- The reference's softplus of one extended real: the guard never holds, so the value is the overflow-safe form
    `max v 0 + log1p (exp (-|v - 0|))`, which is the specification's. -/
theorem softplus_form (v : Ideal .f32) :
    (Scalar.select (FloatOps.cmpf (F := Ideal) (φ := .f32) .une (FloatOps.subf v Spec.zero) (FloatOps.subf v Spec.zero))
      (FloatOps.addf (F := Ideal) (φ := .f32) v Spec.zero)
      (FloatOps.addf (F := Ideal) (φ := .f32) (FloatOps.maximumf v Spec.zero)
        (FloatOps.hostUnary .log1p (FloatOps.hostUnary .exp (FloatOps.hostNegf (FloatOps.hostAbsf (FloatOps.subf v Spec.zero)))))) : Ideal .f32)
      = Spec.softplus v := by
  rw [cmp_une_self, ValueIdx.select_zero]
  rfl

/-- The third epilogue: the matrix plus the bias row under each column, then the softplus. -/
theorem v127_eq (x0 : (⟨S100000x127, .f32⟩ : BufTy).Contents (Elt Ideal)) (x1 : (⟨S100000x1, .f32⟩ : BufTy).Contents (Elt Ideal))
    (x2 : (⟨S2x800000, .i32⟩ : BufTy).Contents (Elt Ideal)) (x3 : (⟨S128x128, .f32⟩ : BufTy).Contents (Elt Ideal))
    (x4 : (⟨S128, .f32⟩ : BufTy).Contents (Elt Ideal)) (x7 : (⟨S128x64, .f32⟩ : BufTy).Contents (Elt Ideal))
    (x8 : (⟨S64, .f32⟩ : BufTy).Contents (Elt Ideal)) :
    val_main_v127 (F := Ideal) x0 x1 x2 x3 x4 x7 x8
      = Spec.biasSoftplus (val_main_v123 (F := Ideal) x0 x1 x2 x3 x4 x7) (val_main_v124 (F := Ideal) x8) := by
  funext i
  have hi : idx_main_v125 i = Spec.under i := funext fun a => Fin.ext (by
    match a with
    | ⟨0, _⟩ => rfl
    | ⟨1, _⟩ => rfl)
  have h125 : val_main_v125 (F := Ideal) x8 i = val_main_v124 (F := Ideal) x8 (Spec.under i) := by
    rw [val_main_v125_apply, hi]
  have hz0 : val_main_call1_v0 (F := Ideal) i = Spec.zero := by rw [val_main_call1_v0_apply]; rfl
  have hz2 : val_main_call1_v2 (F := Ideal) i = Spec.zero := by rw [val_main_call1_v2_apply]; rfl
  have hz5 : val_main_call1_v5 (F := Ideal) i = Spec.zero := by rw [val_main_call1_v5_apply]; rfl
  rw [val_main_v127_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, hz0, hz2, hz5, val_main_v126_apply, h125]
  generalize val_main_v123 (F := Ideal) x0 x1 x2 x3 x4 x7 = a
  exact softplus_form _

end Cert.ReferenceIdeal.Epilogue

end
-- ==== Proof.lean ====
/-
  The certificate of a two-layer graph convolution with two heads, computed by seven tiled kernels between host
  stretches, against its plain reference: at the ideal instance both programs end with the same two arrays.

  The mathematics.  Both programs add the self loops to the edge list, weigh every edge by the product of its
  endpoints' inverse root degrees, and compute
      h₀ = |[x | Y]|,   h₁ = relu (A (h₀ W₁) + b₁),   μ = A (h₁ W_μ) + b_μ,   σ = softplus (A (h₁ W_σ) + b_σ),
  where `A` gathers each edge's source row, scales it by the edge's weight and adds it into the target row.  The
  aggregation `A`, the edge lists and the weights are the same host operations in both programs, on the same operands.
  The kernel program computes `|[x | Y]|`, the three products and the three bias epilogues in kernels over ten blocks of
  10000 rows; the reference computes them on the whole arrays.  A block of a row-wise function is the function of the
  block, the ten blocks cover the array, a product into a zero accumulator is the host's product (a sum of 128 products
  per entry on the extended reals, whatever the operands' format), and the softplus guard `d ≠ d` is false of every
  extended real in both spellings: so each kernel's output array is the reference's stage of the same input arrays,
  and by induction along the program so are the two results.  No law used needs finiteness, so the precondition is
  never opened.  The ideal pass rewrote nothing: `preserves` is `True`.

  The three frames are the generated frame proofs (the reference's its generated run with the results dropped).
-/
import proofs.«153344_j5583457485491_1_alg».proof.Defs
import proofs.«153344_j5583457485491_1_alg».proof.Proof.Gen.Kernel
import proofs.«153344_j5583457485491_1_alg».proof.Proof.Gen.Kernel.Skeleton
import proofs.«153344_j5583457485491_1_alg».proof.Proof.Gen.Kernel.Launch
import proofs.«153344_j5583457485491_1_alg».proof.Proof.Gen.Kernel.Points
import proofs.«153344_j5583457485491_1_alg».proof.Proof.Gen.Kernel.Frame
import proofs.«153344_j5583457485491_1_alg».proof.Proof.Gen.KernelIdeal
import proofs.«153344_j5583457485491_1_alg».proof.Proof.Gen.KernelIdeal.Skeleton
import proofs.«153344_j5583457485491_1_alg».proof.Proof.Gen.KernelIdeal.Launch
import proofs.«153344_j5583457485491_1_alg».proof.Proof.Gen.KernelIdeal.Points
import proofs.«153344_j5583457485491_1_alg».proof.Proof.Gen.KernelIdeal.Frame
import proofs.«153344_j5583457485491_1_alg».proof.Proof.Gen.ReferenceIdeal
import proofs.«153344_j5583457485491_1_alg».proof.Proof.Gen.ReferenceIdeal.Run
import proofs.«153344_j5583457485491_1_alg».proof.Proof.Gen.ReferenceIdeal.Read
import proofs.«153344_j5583457485491_1_alg».proof.Proof.Gen.Pre_finite_inputs
import proofs.«153344_j5583457485491_1_alg».proof.Proof.KernelRun
import proofs.«153344_j5583457485491_1_alg».proof.Proof.KernelFold
import proofs.«153344_j5583457485491_1_alg».proof.Proof.Region0AbsConcat
import proofs.«153344_j5583457485491_1_alg».proof.Proof.Region1Matmul
import proofs.«153344_j5583457485491_1_alg».proof.Proof.Region2BiasRelu
import proofs.«153344_j5583457485491_1_alg».proof.Proof.Region3Matmul
import proofs.«153344_j5583457485491_1_alg».proof.Proof.Region4RowBias
import proofs.«153344_j5583457485491_1_alg».proof.Proof.Region5Matmul
import proofs.«153344_j5583457485491_1_alg».proof.Proof.Region6BiasSoftplus
import proofs.«153344_j5583457485491_1_alg».proof.Proof.RefAbsConcat
import proofs.«153344_j5583457485491_1_alg».proof.Proof.RefMatmul
import proofs.«153344_j5583457485491_1_alg».proof.Proof.RefEpilogues
import Idealize.ShloMosaic.Adequacy
import Idealize.ShloMosaic.Init

noncomputable section

namespace Cert.Proof

open Idealize.ShloMosaic Idealize.ShloMosaic.TcCoe Idealize.SL.Sem
open Cert.ReferenceIdeal.Read

/-- Each kernel leaves the reference's stage of the arrays it found: the kernel's array is the specification's
    function of them (the region modules), and so is the reference's stage (the reference modules). -/
theorem stages : Cert.KernelIdeal.Fold.Stages where
  s0 := fun V c => (Cert.KernelIdeal.Region0.value V c).trans (Cert.ReferenceIdeal.Features.v8_eq _ _).symm
  s1 := fun V c x0 x1 h => by
    rw [Cert.KernelIdeal.Region1.value V c, h]; exact (Cert.ReferenceIdeal.Dense.v9_eq x0 x1 _).symm
  s2 := fun V c x0 x1 x2 x3 x4 h h' => by
    rw [Cert.KernelIdeal.Region2.value V c, h, h']; exact (Cert.ReferenceIdeal.Epilogue.v48_eq x0 x1 x2 x3 x4).symm
  s3 := fun V c x0 x1 x2 x3 x4 h => by
    rw [Cert.KernelIdeal.Region3.value V c, h]; exact (Cert.ReferenceIdeal.Dense.v49_eq x0 x1 x2 x3 x4 _).symm
  s4 := fun V c x0 x1 x2 x3 x4 x5 x6 h h' => by
    rw [Cert.KernelIdeal.Region4.value V c, h, h']; exact (Cert.ReferenceIdeal.Epilogue.v87_eq x0 x1 x2 x3 x4 x5 x6).symm
  s5 := fun V c x0 x1 x2 x3 x4 h => by
    rw [Cert.KernelIdeal.Region5.value V c, h]; exact (Cert.ReferenceIdeal.Dense.v88_eq x0 x1 x2 x3 x4 _).symm
  s6 := fun V c x0 x1 x2 x3 x4 x7 x8 h h' => by
    rw [Cert.KernelIdeal.Region6.value V c, h, h']; exact (Cert.ReferenceIdeal.Epilogue.v127_eq x0 x1 x2 x3 x4 x7 x8).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the reference's two stages of the (shared) arguments. -/
theorem algebraic : Cert.algebraic_KernelIdeal_ReferenceIdeal := by
  intro m ρ m' ρ' _ hagree
  refine ⟨fun c => val_main_v87 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    fun c => val_main_v127 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Fold.result0 m ρ stages c),
        (h c).2.1.trans (Cert.KernelIdeal.Fold.result1 m ρ stages c), (h c).2.2⟩)
      (Cert.KernelIdeal.Results.run_values (F := Ideal) m ρ)
  · refine (θ_run Cert.ReferenceIdeal.defs _ _).mono (fun r h c => ⟨?_, ?_, (h c).2.2⟩)
      (Cert.ReferenceIdeal.Value.run (F := Ideal) m' ρ')
    · rw [(h c).1, val_main_v87_eq, (hagree c).1, (hagree c).2.1, (hagree c).2.2.1, (hagree c).2.2.2.1,
        (hagree c).2.2.2.2.1, (hagree c).2.2.2.2.2.1, (hagree c).2.2.2.2.2.2.1]
    · rw [(h c).2.1, val_main_v127_eq, (hagree c).1, (hagree c).2.1, (hagree c).2.2.1, (hagree c).2.2.2.1,
        (hagree c).2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
